-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x512 : Shape := ⟨3, ![4, 512, 512]⟩
abbrev S4x100x512 : Shape := ⟨3, ![4, 100, 512]⟩
abbrev S1024x1024 : Shape := ⟨2, ![1024, 1024]⟩
abbrev S_ : Shape := ⟨0, ![]⟩

class Facts : Prop where
  bcast_S_S4x512x512 : S_.BroadcastsInDim S4x512x512 (![] : Fin 0 → Fin S4x512x512.rank)
  reducesTo_S4x512x512_S_d0_1_2 : S4x512x512.ReducesTo [0, 1, 2] S_
  h_S_ : 0 < S_.numel
  bcast_S_S4x100x512 : S_.BroadcastsInDim S4x100x512 (![] : Fin 0 → Fin S4x100x512.rank)
  reducesTo_S4x100x512_S_d0_1_2 : S4x100x512.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x512x512 .f32) (main_arg1 : FVec F S4x100x512 .f32) (main_arg2 : FVec F S1024x1024 .f32) : IVec S_ 1 :=
  let main_v0 : FVec F S4x512x512 .f32 := Host.absf main_arg0
  let main_cst : FVec F S_ .f32 := constant S_ .f32 0x7F800000#32
  let main_v1 : FVec F S4x512x512 .f32 := broadcastInDim S4x512x512 ![] bcast_S_S4x512x512 main_cst
  let main_v2 : IVec S4x512x512 1 := cmpf .olt main_v0 main_v1
  let main_c : IVec S_ 1 := constantI S_ 1 1#1
  let main_v3 : IVec S_ 1 := (fun x v => Host.reduce IntOp.andi x v reducesTo_S4x512x512_S_d0_1_2 h_S_) main_v2 main_c
  let main_v4 : FVec F S4x100x512 .f32 := Host.absf main_arg1
  let main_cst_0 : FVec F S_ .f32 := constant S_ .f32 0x7F800000#32
  let main_v5 : FVec F S4x100x512 .f32 := broadcastInDim S4x100x512 ![] bcast_S_S4x100x512 main_cst_0
  let main_v6 : IVec S4x100x512 1 := cmpf .olt main_v4 main_v5
  let main_c_1 : IVec S_ 1 := constantI S_ 1 1#1
  let main_v7 : IVec S_ 1 := (fun x v => Host.reduce IntOp.andi x v reducesTo_S4x100x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x512x512 : Shape := ⟨3, ![4, 512, 512]⟩
abbrev S4x100x512 : Shape := ⟨3, ![4, 100, 512]⟩
abbrev S1024x1024 : Shape := ⟨2, ![1024, 1024]⟩
abbrev S1024x512 : Shape := ⟨2, ![1024, 512]⟩
abbrev S512x1024 : Shape := ⟨2, ![512, 1024]⟩
abbrev S400x512 : Shape := ⟨2, ![400, 512]⟩
abbrev S400x1024 : Shape := ⟨2, ![400, 1024]⟩
abbrev S4x100x1024 : Shape := ⟨3, ![4, 100, 1024]⟩
abbrev S4x512x100x1024 : Shape := ⟨4, ![4, 512, 100, 1024]⟩
abbrev S1x24x512 : Shape := ⟨3, ![1, 24, 512]⟩
abbrev S1x100x1024 : Shape := ⟨3, ![1, 100, 1024]⟩
abbrev S1x24x100x1024 : Shape := ⟨4, ![1, 24, 100, 1024]⟩
abbrev S24x512 : Shape := ⟨2, ![24, 512]⟩
abbrev S24x1024 : Shape := ⟨2, ![24, 1024]⟩
abbrev S100x1024 : Shape := ⟨2, ![100, 1024]⟩
abbrev S24x1x1024 : Shape := ⟨3, ![24, 1, 1024]⟩
abbrev S24x100x1024 : Shape := ⟨3, ![24, 100, 1024]⟩

abbrev nBuf : Space → Nat
  | .hbm => 13
  | .vmem => 10
  | .smem => 0
  | _ => 0

abbrev bufTy : (tb : Table) → Fin (tcTables nBuf tb) → BufTy
  | .hbm, ⟨0, _⟩ => ⟨S4x512x512, .f32⟩
  | .hbm, ⟨1, _⟩ => ⟨S4x100x512, .f32⟩
  | .hbm, ⟨2, _⟩ => ⟨S1024x1024, .f32⟩
  | .hbm, ⟨3, _⟩ => ⟨S1024x512, .f32⟩
  | .hbm, ⟨4, _⟩ => ⟨S512x1024, .f32⟩
  | .hbm, ⟨5, _⟩ => ⟨S512x1024, .bf16⟩
  | .hbm, ⟨6, _⟩ => ⟨S1024x512, .f32⟩
  | .hbm, ⟨7, _⟩ => ⟨S512x1024, .f32⟩
  | .hbm, ⟨8, _⟩ => ⟨S512x1024, .bf16⟩
  | .hbm, ⟨9, _⟩ => ⟨S400x512, .f32⟩
  | .hbm, ⟨10, _⟩ => ⟨S400x1024, .f32⟩
  | .hbm, ⟨11, _⟩ => ⟨S4x100x1024, .f32⟩
  | .hbm, ⟨12, _⟩ => ⟨S4x512x100x1024, .f32⟩
  | .local _ .vmem, ⟨0, _⟩ => ⟨S400x512, .f32⟩
  | .local _ .vmem, ⟨1, _⟩ => ⟨S512x1024, .bf16⟩
  | .local _ .vmem, ⟨2, _⟩ => ⟨S400x1024, .f32⟩
  | .local _ .vmem, ⟨3, _⟩ => ⟨S1x24x512, .f32⟩
  | .local _ .vmem, ⟨4, _⟩ => ⟨S1x24x512, .f32⟩
  | .local _ .vmem, ⟨5, _⟩ => ⟨S512x1024, .bf16⟩
  | .local _ .vmem, ⟨6, _⟩ => ⟨S1x100x1024, .f32⟩
  | .local _ .vmem, ⟨7, _⟩ => ⟨S1x100x1024, .f32⟩
  | .local _ .vmem, ⟨8, _⟩ => ⟨S1x24x100x1024, .f32⟩
  | .local _ .vmem, ⟨9, _⟩ => ⟨S1x24x100x1024, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S400x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S400x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![4, 22], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x24x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S512x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x100x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x24x100x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  slices_S1024x1024_S1024x512_0_0 : S1024x1024.Slices ![0, 0] S1024x512
  transposes_S1024x512_S512x1024_1_0 : S1024x512.Transposes [1, 0] S512x1024
  bitsLt_bf16_f32 : FTy.bits .bf16 < FTy.bits .f32
  slices_S1024x1024_S1024x512_0_512 : S1024x1024.Slices ![0, 512] S1024x512
  shapeCasts_S4x100x512_S400x512 : S4x100x512.ShapeCasts S400x512
  inb_S400x512_S400x512_0_0 : ∀ a, (![0, 0] : Fin 2 → Nat) a + S400x512.size a ≤ S400x512.size a
  h_S400x512 : 0 < S400x512.numel
  shapeCasts_S400x512_S400x512 : S400x512.ShapeCasts S400x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S400x1024_S400x1024_0_0 : ∀ a, (![0, 0] : Fin 2 → Nat) a + S400x1024.size a ≤ S400x1024.size a
  h_S400x1024 : 0 < S400x1024.numel
  shapeCasts_S400x1024_S4x100x1024 : S400x1024.ShapeCasts S4x100x1024
  inb_S1x24x512_S1x24x512_0_0_0 : ∀ a, (![0, 0, 0] : Fin 3 → Nat) a + S1x24x512.size a ≤ S1x24x512.size a
  h_S1x24x512 : 0 < S1x24x512.numel
  shapeCasts_S1x24x512_S24x512 : S1x24x512.ShapeCasts S24x512
  inb_S1x100x1024_S1x100x1024_0_0_0 : ∀ a, (![0, 0, 0] : Fin 3 → Nat) a + S1x100x1024.size a ≤ S1x100x1024.size a
  h_S1x100x1024 : 0 < S1x100x1024.numel
  shapeCasts_S1x100x1024_S100x1024 : S1x100x1024.ShapeCasts S100x1024
  shapeCasts_S24x1024_S24x1x1024 : S24x1024.ShapeCasts S24x1x1024
  shapeCasts_S100x1024_S1x100x1024 : S100x1024.ShapeCasts S1x100x1024
  broadcasts_S24x1x1024_S24x100x1024 : S24x1x1024.Broadcasts S24x100x1024
  broadcasts_S1x100x1024_S24x100x1024 : S1x100x1024.Broadcasts S24x100x1024
  inb_S1x24x100x1024_S1x24x100x1024_0_0_0_0 : ∀ a, (![0, 0, 0, 0] : Fin 4 → Nat) a + S1x24x100x1024.size a ≤ S1x24x100x1024.size a
  h_S1x24x100x1024 : 0 < S1x24x100x1024.numel
  shapeCasts_S1x24x100x1024_S24x100x1024 : S1x24x100x1024.ShapeCasts S24x100x1024
  shapeCasts_S24x100x1024_S1x24x100x1024 : S24x100x1024.ShapeCasts S1x24x100x1024
  dot_S400x512_S512x1024_S400x1024_1_0_0_1_n_n_wf : DotDims.WF S400x512 S512x1024 S400x1024 [1] [0] [0] [1] [] []
  dot_S24x512_S512x1024_S24x1024_1_0_0_1_n_n_wf : DotDims.WF S24x512 S512x1024 S24x1024 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S400x512.size a ≤ S400x512.size a
  hwx0_0 : ∀ i : grid0.Coords, EltTy.bits .f32 = 32 ∨ (Rect.block (s := S400x512) S400x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S400x1024.size a ≤ S400x1024.size a
  hwx0_2 : ∀ i : grid0.Coords, EltTy.bits .f32 = 32 ∨ (Rect.block (s := S400x1024) S400x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S1x24x512.size a < S4x512x512.size a
  hwx1_0 : ∀ i : grid1.Coords, EltTy.bits .f32 = 32 ∨ (Rect.unit (s := S4x512x512) (fun a => cc1_transform_0 i a * S1x24x512.size a) (fun a => (Pipeline.Clip.of (cc1_transform_0 i a) (S1x24x512.size a) (S4x512x512.size a)).extent (S1x24x512.size a)) fun a => Pipeline.Clip.inb (Pipeline.Clip.ok_of (hstart1_0 i a))).WholeWords (EltTy.packing .f32)
  hwxs1_0 : ∀ i : grid1.Coords, EltTy.bits .f32 = 32 ∨ (Rect.unit (s := S1x24x512) (fun _ => 0) (fun a => (Pipeline.Clip.of (cc1_transform_0 i a) (S1x24x512.size a) (S4x512x512.size a)).extent (S1x24x512.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S512x1024.size a
  hwx1_1 : ∀ i : grid1.Coords, EltTy.bits .bf16 = 32 ∨ (Rect.block (s := S512x1024) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x100x1024.size a ≤ S4x100x1024.size a
  hwx1_2 : ∀ i : grid1.Coords, EltTy.bits .f32 = 32 ∨ (Rect.block (s := S4x100x1024) S1x100x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1x24x100x1024.size a < S4x512x100x1024.size a
  hwx1_3 : ∀ i : grid1.Coords, EltTy.bits .f32 = 32 ∨ (Rect.unit (s := S4x512x100x1024) (fun a => cc1_transform_3 i a * S1x24x100x1024.size a) (fun a => (Pipeline.Clip.of (cc1_transform_3 i a) (S1x24x100x1024.size a) (S4x512x100x1024.size a)).extent (S1x24x100x1024.size a)) fun a => Pipeline.Clip.inb (Pipeline.Clip.ok_of (hstart1_3 i a))).WholeWords (EltTy.packing .f32)
  hwxs1_3 : ∀ i : grid1.Coords, EltTy.bits .f32 = 32 ∨ (Rect.unit (s := S1x24x100x1024) (fun _ => 0) (fun a => (Pipeline.Clip.of (cc1_transform_3 i a) (S1x24x100x1024.size a) (S4x512x100x1024.size a)).extent (S1x24x100x1024.size a)) fun a => (Nat.zero_add _).trans_le (Pipeline.Clip.extent_le (Pipeline.Clip.ok_of (hstart1_3 i a)))).WholeWords (EltTy.packing .f32)

variable [Facts₀]

def dot_S400x512_S512x1024_S400x1024_1_0_0_1_n_n : DotDims S400x512 S512x1024 S400x1024 where
  lhsContracting := [1]
  rhsContracting := [0]
  lhsNonContracting := [0]
  rhsNonContracting := [1]
  lhsBatch := []
  rhsBatch := []
  wf := dot_S400x512_S512x1024_S400x1024_1_0_0_1_n_n_wf
def dot_S24x512_S512x1024_S24x1024_1_0_0_1_n_n : DotDims S24x512 S512x1024 S24x1024 where
  lhsContracting := [1]
  rhsContracting := [0]
  lhsNonContracting := [0]
  rhsNonContracting := [1]
  lhsBatch := []
  rhsBatch := []
  wf := dot_S24x512_S512x1024_S24x1024_1_0_0_1_n_n_wf

abbrev win0_0 : Pipeline.Window sig grid0 :=
  Pipeline.Window.ofSpec (Memref.whole main_v6) S400x512.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S400x1024.size cc0_transform_2 reads0_2 true false 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_arg0) S1x24x512.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v2) S512x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x100x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpecClip (Memref.whole main_v9) S1x24x100x1024.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x512x512 : Shape := ⟨3, ![4, 512, 512]⟩
abbrev S4x100x512 : Shape := ⟨3, ![4, 100, 512]⟩
abbrev S1024x1024 : Shape := ⟨2, ![1024, 1024]⟩
abbrev S1024x512 : Shape := ⟨2, ![1024, 512]⟩
abbrev S4x512x1024 : Shape := ⟨3, ![4, 512, 1024]⟩
abbrev S4x100x1024 : Shape := ⟨3, ![4, 100, 1024]⟩
abbrev S4x512x1x1024 : Shape := ⟨4, ![4, 512, 1, 1024]⟩
abbrev S4x1x100x1024 : Shape := ⟨4, ![4, 1, 100, 1024]⟩
abbrev S4x512x100x1024 : Shape := ⟨4, ![4, 512, 100, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S4x100x512, .f32⟩
  | .hbm, ⟨2, _⟩ => ⟨S1024x1024, .f32⟩
  | .hbm, ⟨3, _⟩ => ⟨S1024x512, .f32⟩
  | .hbm, ⟨4, _⟩ => ⟨S1024x512, .f32⟩
  | .hbm, ⟨5, _⟩ => ⟨S4x512x1024, .f32⟩
  | .hbm, ⟨6, _⟩ => ⟨S4x100x1024, .f32⟩
  | .hbm, ⟨7, _⟩ => ⟨S4x512x1x1024, .f32⟩
  | .hbm, ⟨8, _⟩ => ⟨S4x1x100x1024, .f32⟩
  | .hbm, ⟨9, _⟩ => ⟨S4x512x100x1024, .f32⟩
  | .hbm, ⟨10, _⟩ => ⟨S4x512x100x1024, .f32⟩
  | .hbm, ⟨11, _⟩ => ⟨S4x512x100x1024, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  slices_S1024x1024_S1024x512_0_0 : S1024x1024.Slices ![0, 0] S1024x512
  slices_S1024x1024_S1024x512_0_512 : S1024x1024.Slices ![0, 512] S1024x512
  bcast_S4x512x1024_S4x512x1x1024_0_1_3 : S4x512x1024.BroadcastsInDim S4x512x1x1024 (![0, 1, 3] : Fin 3 → Fin S4x512x1x1024.rank)
  bcast_S4x100x1024_S4x1x100x1024_0_2_3 : S4x100x1024.BroadcastsInDim S4x1x100x1024 (![0, 2, 3] : Fin 3 → Fin S4x1x100x1024.rank)
  bcast_S4x512x1x1024_S4x512x100x1024_0_1_2_3 : S4x512x1x1024.BroadcastsInDim S4x512x100x1024 (![0, 1, 2, 3] : Fin 4 → Fin S4x512x100x1024.rank)
  bcast_S4x1x100x1024_S4x512x100x1024_0_1_2_3 : S4x1x100x1024.BroadcastsInDim S4x512x100x1024 (![0, 1, 2, 3] : Fin 4 → Fin S4x512x100x1024.rank)
  dot_S4x512x512_S1024x512_S4x512x1024_2_1_01_0_n_n_wf : DotDims.WF S4x512x512 S1024x512 S4x512x1024 [2] [1] [0, 1] [0] [] []
  dot_S4x100x512_S1024x512_S4x100x1024_2_1_01_0_n_n_wf : DotDims.WF S4x100x512 S1024x512 S4x100x1024 [2] [1] [0, 1] [0] [] []

variable [Facts₀]

def dot_S4x512x512_S1024x512_S4x512x1024_2_1_01_0_n_n : DotDims S4x512x512 S1024x512 S4x512x1024 where
  lhsContracting := [2]
  rhsContracting := [1]
  lhsNonContracting := [0, 1]
  rhsNonContracting := [0]
  lhsBatch := []
  rhsBatch := []
  wf := dot_S4x512x512_S1024x512_S4x512x1024_2_1_01_0_n_n_wf
def dot_S4x100x512_S1024x512_S4x100x1024_2_1_01_0_n_n : DotDims S4x100x512 S1024x512 S4x100x1024 where
  lhsContracting := [2]
  rhsContracting := [1]
  lhsNonContracting := [0, 1]
  rhsNonContracting := [0]
  lhsBatch := []
  rhsBatch := []
  wf := dot_S4x100x512_S1024x512_S4x100x1024_2_1_01_0_n_n_wf

class Facts : Prop extends Facts₀ where

variable [Facts]
-- ==== Proof.KBody.lean ====
/-
  The two kernel bodies as separation-logic triples, and the proof data of the two pipelines, at any float
  instance.

  The projection kernel (one grid point) loads its two whole input blocks, multiplies them and stores the
  product over its whole output block. The joint kernel (grid 4 × 22) loads a 24-row block of the encoder
  array, the whole weight matrix and one batch slab of the projected decoder, and stores
  ⟦product row ⊕ decoder row⟧ over its whole output block. Neither body branches or keeps anything between
  points, so each triple is: the input buffers are read and kept, the output buffer ends at the payload of
  the one store.

  The joint kernel's first input and its output are cut at the array's end (512 rows in blocks of 24: the
  last block has 8 rows inside the array). For those windows the proof data name the staging contents only on
  the rows inside the array; past them the input buffer holds words nothing names, and what the body computes
  from them is never written back.
-/
import proofs.«176540_j25082609008778_2_alg».proof.Proof.Gen.Kernel.Launch
import proofs.«176540_j25082609008778_2_alg».proof.Proof.Gen.Kernel.Skeleton
import proofs.«176540_j25082609008778_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The accesses: every load and the store of either body is of a whole buffer -/

abbrev rA : Rect S400x512 := Rect.unit (s := S400x512) ![0, 0] S400x512.size inb_S400x512_S400x512_0_0
abbrev rW : Rect S512x1024 := Rect.unit (s := S512x1024) ![0, 0] S512x1024.size inb_S512x1024_S512x1024_0_0
abbrev rP : Rect S400x1024 := Rect.unit (s := S400x1024) ![0, 0] S400x1024.size inb_S400x1024_S400x1024_0_0
abbrev rE : Rect S1x24x512 := Rect.unit (s := S1x24x512) ![0, 0, 0] S1x24x512.size inb_S1x24x512_S1x24x512_0_0_0
abbrev rD : Rect S1x100x1024 := Rect.unit (s := S1x100x1024) ![0, 0, 0] S1x100x1024.size inb_S1x100x1024_S1x100x1024_0_0_0
abbrev rO : Rect S1x24x100x1024 := Rect.unit (s := S1x24x100x1024) ![0, 0, 0, 0] S1x24x100x1024.size inb_S1x24x100x1024_S1x24x100x1024_0_0_0_0

/-- What the projection body leaves in its output buffer, from what its two input buffers read. -/
def outP (x0 : Vec F S400x512 .f32) (x1 : Vec F S512x1024 .bf16) : Vec F S400x1024 .f32 :=
  View.canon [⟨rP, k0_pay1 (View.ld x0 rA) (View.ld x1 rW)⟩]

/-- What the joint body leaves in its output buffer, from what its three input buffers read. -/
def outJ (x0 : Vec F S1x24x512 .f32) (x1 : Vec F S512x1024 .bf16) (x2 : Vec F S1x100x1024 .f32) : Vec F S1x24x100x1024 .f32 :=
  View.canon [⟨rO, k1_pay1 (View.ld x0 rE) (View.ld x1 rW) (View.ld x2 rD)⟩]

theorem coverP (p0 : Vec F S400x1024 .f32) (y : S400x1024.Idx) :
    ∃ pc ∈ ([⟨rP, p0⟩] : List (View.Piece (Elt F) S400x1024 .f32)), y ∈ pc.1.set :=
  View.cover_of_tiled [⟨rP, p0⟩] S400x1024.size (by rfl) y

theorem coverJ (p0 : Vec F S1x24x100x1024 .f32) (y : S1x24x100x1024.Idx) :
    ∃ pc ∈ ([⟨rO, p0⟩] : List (View.Piece (Elt F) S1x24x100x1024 .f32)), y ∈ pc.1.set :=
  View.cover_of_tiled [⟨rO, p0⟩] S1x24x100x1024.size (by rfl) y

/-! ## The bodies' triples -/

set_option maxHeartbeats 1000000 in
/-- The projection body on whole staging memrefs: the inputs read and kept, the output left at the product. -/
theorem sound_proj (c : Dev nD) (E : Set ℕ) (i : grid0.Coords)
    (arg1 : Memref sig .tc .vmem S400x512 .f32) (harg1 : arg1.IsWhole)
    (arg2 : Memref sig .tc .vmem S512x1024 .bf16) (harg2 : arg2.IsWhole)
    (arg3 : Memref sig .tc .vmem S400x1024 .f32) (harg3 : arg3.IsWhole)
    (x0 : Vec F S400x512 .f32) (x1 : Vec F S512x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outP x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverP _)

set_option maxHeartbeats 1000000 in
/-- The joint body on whole staging memrefs: the inputs read and kept, the output left at the broadcast sum. -/
theorem sound_joint (c : Dev nD) (E : Set ℕ) (i : grid1.Coords)
    (arg2 : Memref sig .tc .vmem S1x24x512 .f32) (harg2 : arg2.IsWhole)
    (arg3 : Memref sig .tc .vmem S512x1024 .bf16) (harg3 : arg3.IsWhole)
    (arg4 : Memref sig .tc .vmem S1x100x1024 .f32) (harg4 : arg4.IsWhole)
    (arg5 : Memref sig .tc .vmem S1x24x100x1024 .f32) (harg5 : arg5.IsWhole)
    (x0 : Vec F S1x24x512 .f32) (x1 : Vec F S512x1024 .bf16) (x2 : Vec F S1x100x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outJ x0 x1 x2)) -∗ K ⟨⟩))
      ⊢ wp frame (wpE (defs₀ (F := F)) Variants.none c none) E (cc1__joint_kernel i arg2 harg2 arg3 harg3 arg4 harg4 arg5 harg5) K := by
  simp only [cc1__joint_kernel_eq_skeleton]; unfold cc1__joint_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverJ _)

end Cert.Kernel.Hand

end
-- ==== Proof.KData.lean ====
/-
  The proof data of the two pipelines at any float instance, over a parameter: the contents of the core's
  unscoped buffers when the pipeline is entered.

  Projection pipeline (one point): both inputs hold their whole arrays, the output ends at the product.
  Joint pipeline (4 × 22 points): the encoder block is fetched at every point, cut at the array's end; the weight
  matrix is fetched once and the decoder slab once per batch, and the body leaves both in place, so at every point
  they hold their blocks; the output block is written back at every point, cut like the encoder block. What the
  data name for the two cut windows is fixed on the rows inside the array only: past them the encoder buffer is
  filled out with a zero word the data pick and the machine need not hold.
-/
import proofs.«176540_j25082609008778_2_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The projection pipeline -/

/-- Window ⟦w⟧'s block at point ⟦t⟧, read off its array as the pipeline finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outP (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outP (iblk0 V c 0 t) (iblk0 V c 1 t) := by dsimp only [dat0]

/-- Each input buffer holds its block at the point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_proj c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! # The joint pipeline -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The encoder block at point ⟦t⟧ filled out to the staging buffer's 24 rows with a zero word. -/
def encBlk (c : Dev nD) (t : Fin cfg1.N) : S1x24x512.Idx → Elt F .f32 :=
  win1_0.fill (grid1.coords t) (fun _ => Scalar.ofBits .f32 0#32) (iblk1 V c 0 t)

def dat1 (c : Dev nD) : Dat τ (Elt F) Unit ℕ (UR sig nD τ) ℕ cfg1 c where
  A w := V c (Pipeline.arrRef spec1 w)
  after w t := match w with
    | ⟨0, _⟩ => encBlk V c t
    | ⟨1, _⟩ => iblk1 V c 1 t
    | ⟨2, _⟩ => iblk1 V c 2 t
    | ⟨3, _⟩ => outJ (encBlk V c t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = encBlk V c t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = outJ (encBlk V c t) (iblk1 V c 1 t) (iblk1 V c 2 t) := by dsimp only [dat1]

/-- The encoder buffer, fetched at every point: the block on the rows inside the array, anything past them. -/
theorem before1_0 (c : Dev nD) (t : Fin cfg1.N) (d) :
    (dat1 V c).before 0 t d = win1_0.fill (grid1.coords t) d (iblk1 V c 0 t) := by
  unfold Dat.before; rw [if_pos (fetch1_0 t)]; rfl
/-- The weight buffer and the decoder buffer hold their blocks at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- The output window, forgotten: the mask under which its staging contents are not named. -/
abbrev fgtOut : Fin cfg1.W → Bool := fun w => w.val == 3

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ X, owns (c : Thread nD τ) (st1_3 t) fullShare X))

def bodyPost1 (c : Dev nD) (t : Fin cfg1.N) : sProp 𝕄 :=
  iprop((dat1 V c).Φ t.succ ∗ (dat1 V c).owesAt () t.succ
    ∗ (∃ d, owns (c : Thread nD τ) (st1_0 t) fullShare (win1_0.fill (grid1.coords t) d (win1_0.cut (grid1.coords t) ((dat1 V c).after 0 t))))
    ∗ owns (c : Thread nD τ) (st1_1 t) fullShare ((dat1 V c).after 1 t)
    ∗ owns (c : Thread nD τ) (st1_2 t) fullShare ((dat1 V c).after 2 t)
    ∗ (∃ X, owns (c : Thread nD τ) (st1_3 t) fullShare X))

/-- The joint body at any point, the output buffer's contents not named. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩, ⟨%X3, H3⟩⟩
  iapply (sound_joint c Set.univ _ _ _ _ _ _ _ _ _ (win1_0.fill (grid1.coords t) d0 (iblk1 V c 0 t)) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [show win1_0.cut (grid1.coords t) (encBlk V c t) = iblk1 V c 0 t from win1_0.cut_fill _ _ _]
    iexact H0
  isplitl [H1]; · iexact H1
  isplitl [H2]; · iexact H2
  iexists _; iexact H3

theorem body_obligation1 (c : Dev nD) :
    BodyObligationLoose (dat1 (F := F) V c) (defs₀ (F := F)) Variants.none () Set.univ fgtOut := fun t => by
  rw [bigSep_W1, bigSep_W1]
  exact sound_body1 V c t

end Cert.Kernel.Hand

end
-- ==== Proof.KRun.lean ====
/-
  The run of the whole program at any float instance: host lines, the projection pipeline, one more host line,
  the joint pipeline. Every unscoped buffer's contents are followed from the launch memory through each
  segment: a host stretch applies its operations; the projection pipeline leaves its output array at what its
  one write-back wrote and everything else as found; the joint pipeline, the last segment, leaves its arrays at
  SOME contents they may hold after its 88 write-backs (an input array: as found) — which contents, for the
  output, is said by the proof data unless the output window is forgotten (the parameter ⟦fgt⟧).

  Every weakly fair execution terminates, nothing faults, and the final memory holds, at every unscoped buffer,
  the contents so followed. The three argument arrays are written by no host line and are inputs (or bypassed)
  in both pipelines, so they end as launched.
-/
import proofs.«176540_j25082609008778_2_alg».proof.Proof.KData
import proofs.«176540_j25082609008778_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev X0 : Dev nD → Valuation τ sig (Elt F) := fun c b => m ((c : Dev nD), b)
/-- After the first host stretch (the projection pipeline's entry). -/
abbrev X1 : Dev nD → Valuation τ sig (Elt F) := fun c => StableHlo.after hostOps0 (X0 m c)
abbrev Y1 : (c : Dev nD) → (b : Ref sig .tc) → Buf (Elt F) ((c : Thread nD τ).loc b) := fun c b => X1 m c b
/-- At the projection pipeline's exit. -/
def X2 (c : Dev nD) : Valuation τ sig (Elt F) :=
  Pipeline.withArrays spec0 c (X1 m c) fun w => (dat0 (Y1 m) c).arrAt w cfg0.N
theorem X2_arr (c : Dev nD) (w : Fin cfg0.W) :
    X2 m c (Proc.devRef .tc (Pipeline.arrRef spec0 w)) = (dat0 (Y1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = X1 m c (Proc.devRef .tc b) := by
  unfold X2; exact Pipeline.withArrays_of_ne spec0 c _ _ b hb
abbrev Y2 : (c : Dev nD) → (b : Ref sig .tc) → Buf (Elt F) ((c : Thread nD τ).loc b) := fun c b => X2 m c b
theorem hF0 (c : Dev nD) (w : Fin cfg0.W) : (dat0 (Y1 m) c).arrAt w cfg0.N = Y2 m c (Pipeline.arrRef spec0 w) :=
  (X2_arr m c w).symm
theorem hrest0 (c : Dev nD) : ∀ b, b ∉ Finset.univ.image (Pipeline.arrRef spec0) → Y2 m c b = Y1 m c b :=
  fun b hb => X2_of_ne m c b fun w e => hb (Finset.mem_image.mpr ⟨w, Finset.mem_univ _, e⟩)
/-- After the second host stretch (the joint pipeline's entry). -/
abbrev X3 : Dev nD → Valuation τ sig (Elt F) := fun c => StableHlo.after hostOps1 (X2 m c)
abbrev Y3 : (c : Dev nD) → (b : Ref sig .tc) → Buf (Elt F) ((c : Thread nD τ).loc b) := fun c b => X3 m c b
/-- At the joint pipeline's exit, its arrays at contents ⟦A⟧. -/
def X4 (c : Dev nD) (A : (w : Fin cfg1.W) → Buf (Elt F) ((cfg1.win w).arr.view.loc (c : Thread nD τ))) : Valuation τ sig (Elt F) :=
  Pipeline.withArrays spec1 c (X3 m c) A
theorem X4_arr (c : Dev nD) (A) (w : Fin cfg1.W) :
    X4 m c A (Proc.devRef .tc (Pipeline.arrRef spec1 w)) = A w := by
  unfold X4; exact Pipeline.withArrays_arr spec1 launch1.win.arr_inj c _ _ w
theorem X4_of_ne (c : Dev nD) (A) (b : Ref sig .tc) (hb : ∀ w, Pipeline.arrRef spec1 w ≠ b) :
    X4 m c A (Proc.devRef .tc b) = X3 m c (Proc.devRef .tc b) := by
  unfold X4; exact Pipeline.withArrays_of_ne spec1 c _ _ b hb

/-! ## The proof data family and the thread state -/

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (Y1 m) c
  | ⟨1, _⟩ => fun c => dat1 (Y3 m) c

variable (fgt : Fin cfg1.W → Bool)

/-- The relational reading: the projection pipeline's data exactly, the joint pipeline's with the windows ⟦fgt⟧
    marks forgotten. -/
def rdats : (p : Fin 2) → (c : Dev nD) → RDat τ (Elt F) Unit ℕ (UR sig nD τ) ℕ (Pipeline.pin (pcfgs (F := F)) adm p) c
  | ⟨0, _⟩ => fun c => (dat0 (Y1 m) c).toR
  | ⟨1, _⟩ => fun c => (dat1 (Y3 m) c).toRForget fgt

abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state: the joint pipeline's arrays at some contents they may hold after every write-back,
    every other unscoped buffer as that pipeline found it; the generator register at some state. -/
abbrev Tₙ (c : Dev nD) : sProp 𝕄 :=
  iprop(∃ A : (w : Fin cfg1.W) → Buf (Elt F) ((cfg1.win w).arr.view.loc (c : Thread nD τ)),
    ⌜∀ w, (rdats m fgt 1 c).ArrAt w cfg1.N (A w)⌝ ∗ StableHlo.held (c : Thread nD τ) (Pipeline.ucRefs τ sig) (X4 m c A) ∗ ∃ r, prngReg c r)

/-! ## The pipelines as segments -/

set_option backward.isDefEq.respectTransparency.types false in
def reg0 : Pipeline.RDat.RegionSeg (pcfgs (F := F)) adm (rdats m fgt) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Y1 m) c).toR
  hwaits := Pipeline.RDat.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (Y1 m c)
  hentry c := by
    rw [Pipeline.ownSems0_none]
    have hsplit := Pipeline.RDat.arrays_of_unscopedBufs (p := 0) (pcfgs (F := F)) adm (rdats m fgt) launch0.win launch0.arr_whole c
      ((pdats m 0 c).share_full fun _ => rfl) (Y1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m fgt 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Y1 m c) (Y2 m c) ((pdats m 0 c).arrAt · cfg0.N) (hF0 m c) (hrest0 m c)
    rw [Pipeline.unscopedBufs_held] at hjoin
    rw [show (rdats m fgt 0 c).arraysAt (Pipeline.pin (pcfgs (F := F)) adm 0).N = ((pdats m 0 c).arrays ((pdats m 0 c).arrAt · cfg0.N) : sProp 𝕄)
      from (dat0 (Y1 m) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
def reg1 (hbody1 : ∀ c, BodyObligationLoose (dat1 (F := F) (Y3 m) c) (defs₀ (F := F)) Variants.none () Set.univ fgt) :
    Pipeline.RDat.RegionSeg (pcfgs (F := F)) adm (rdats m fgt) () defs₀ 𝒱₀ L lv 1 where
  win := launch1.win.to₀
  block_pos := launch1.block_pos
  stage_whole := launch1.stage_whole
  K := PEmpty
  osem k := k.elim
  ho := Pipeline.OwnSemFacts.none _
  hbody c := (hbody1 c).toRForget
  hwaits := Pipeline.RDat.hwaits_of_owed_zero _ _ _ _ L lv 1 fun _ _ => rfl
  pre c := iprop(StableHlo.held (c : Thread nD τ) (Pipeline.ucRefs τ sig) (X3 m c) ∗ R c)
  post c := iprop(Tₙ m fgt c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Y3 m c)
  hentry c := by
    rw [Pipeline.ownSems0_none]
    have hsplit := Pipeline.RDat.arrays_of_unscopedBufs (p := 1) (pcfgs (F := F)) adm (rdats m fgt) launch1.win launch1.arr_whole c
      ((pdats m 1 c).share_full fun _ => rfl) (Y3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m fgt 1 c).Φ (Fin.last _) = Pipeline.ΦA spec1 c from rfl]; unfold Pipeline.ΦA
    iintro ⟨Hr, Hp⟩
    isplitl [Hp]; · iexact Hp
    isplitr; · iempintro
    iexact Hr
  hexit c := by
    show iprop((rdats m fgt 1 c).arraysAt cfg1.N ∗ _ ∗ _ ∗ _) ⊢ _
    unfold Pipeline.RDat.arraysAt
    iintro ⟨Ha, HO, HY, Hrest⟩
    ihave Ha' := (BI.bigSep_exists_pi Finset.univ (fun (w : Fin cfg1.W) F => iprop(⌜(rdats m fgt 1 c).ArrAt w cfg1.N F⌝
        ∗ (cfg1.win w).arr.view.loc (c : Thread nD τ) ↦[(cfg1.win w).arr.view.set]{(rdats m fgt 1 c).share w} F))) $$ Ha
    icases Ha' with ⟨%A, Ha⟩
    ihave Ha2 := (BI.bigSep_pure_sep Finset.univ (fun w : Fin cfg1.W => (rdats m fgt 1 c).ArrAt w cfg1.N (A w))
        (fun w : Fin cfg1.W => (cfg1.win w).arr.view.loc (c : Thread nD τ) ↦[(cfg1.win w).arr.view.set]{(rdats m fgt 1 c).share w} A w)) $$ Ha
    icases Ha2 with ⟨%hA', Ha⟩
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Y3 m c) (fun b => X4 m c A b) A (fun w => (X4_arr m c A w).symm)
      (fun b hb => X4_of_ne m c A b fun w e => hb (Finset.mem_image.mpr ⟨w, Finset.mem_univ _, e⟩))
    rw [Pipeline.unscopedBufs_held] at hjoin
    imodintro
    isplitl [Ha Hrest HY]
    · iexists A
      isplitr; · ipureintro; exact fun w => hA' w (Finset.mem_univ w)
      isplitl [Ha Hrest]
      · ihave Ha3 := (show (bigSep Finset.univ fun w : Fin cfg1.W =>
              ((cfg1.win w).arr.view.loc (c : Thread nD τ) ↦[(cfg1.win w).arr.view.set]{(rdats m fgt 1 c).share w} A w : sProp 𝕄))
            ⊢ ((pdats m 1 c).arrays A : sProp 𝕄) from Entails.of_eq rfl) $$ Ha
        iapply hjoin; isplitl [Ha3]
        · iexact Ha3
        · iexact Hrest
      iexact HY
    unfold Pipeline.RDat.owesAt Pipeline.owesWithin
    icases HO with ⟨%W, -, HO⟩; iexists W; iexact HO

/-! ## The run -/

theorem hostOps0_fresh' : (hostOps0 : List (HloOp τ sig (Elt F))).Forall fun op => op.fresh = ∅ := hostOps0_fresh
theorem hostOps1_fresh' : (hostOps1 : List (HloOp τ sig (Elt F))).Forall fun op => op.fresh = ∅ := hostOps1_fresh

abbrev segs (hbody1 : ∀ c, BodyObligationLoose (dat1 (F := F) (Y3 m) c) (defs₀ (F := F)) Variants.none () Set.univ fgt) :
    List (Pipeline.RDat.Seg (pcfgs (F := F)) adm (rdats m fgt) () defs₀ 𝒱₀ L lv) :=
  [ .host (hseg hostOps0 hostOps0_sub hostOps0_fresh (X0 m)),
    .region (reg0 m fgt),
    .host (hseg hostOps1 hostOps1_sub hostOps1_fresh (X2 m)),
    .region (reg1 m fgt hbody1) ]

theorem main_run (hbody1) (c : Dev nD) : main (F := F) c = Pipeline.RDat.Seg.run (segs m fgt hbody1) :=
  (main_chain c).trans (by chain_rfl)

/-- What the run ends with on core ⟦c⟧: the joint pipeline's arrays at some contents they may hold after every
    write-back, every other unscoped buffer at the contents followed through the segments. -/
def QY (c : Dev nD) (s : MemSt nD τ sig (Elt F)) : Prop :=
  ∃ A : (w : Fin cfg1.W) → Buf (Elt F) ((cfg1.win w).arr.view.loc (c : Thread nD τ)),
    (∀ w, (rdats m fgt 1 c).ArrAt w cfg1.N (A w)) ∧ ∀ b ∈ Pipeline.ucRefs τ sig, s.mem (((c : Thread nD τ)).1, b) = X4 m c A b

set_option backward.isDefEq.respectTransparency.types false in
theorem run_all (hbody1 : ∀ c, BodyObligationLoose (dat1 (F := F) (Y3 m) c) (defs₀ (F := F)) Variants.none () Set.univ fgt) :
    θ_run defs (onTc (τ := τ) (main (F := F))) ⟨m, fun _ => 0, ρ⟩ (fun r => ∀ c : Dev nD, QY m fgt c r.2) :=
  Pipeline.RDat.θ_run_regions_kit (pcfgs (F := F)) adm (rdats m fgt) () cellOf_inj emb₁ defs₀ 𝒱₀ L lv m ρ main (segs m fgt hbody1)
    (fun c Q => by rw [main_run m fgt hbody1 c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c)) (Tₙ := Tₙ m fgt)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := QY m fgt)
    (hfin := fun c s' => by
      iintro ⟨⟨%A, %hA, Hh, -⟩, HSI⟩
      unfold StableHlo.held
      ihave Hr := (pointsTo_read_all (Pipeline.ucRefs τ sig) (fun b => (((c : Thread nD τ)).1, b)) (X4 m c A) s') $$ [Hh HSI]
      · isplitl [Hh] <;> iassumption
      icases Hr with ⟨%h, HSI⟩
      imodintro
      isplitr
      · ipureintro; exact ⟨A, hA, h⟩
      · iexact HSI)
    (hQ := fun s h c => h c)

end Cert.Kernel.Hand

end
-- ==== Proof.KArgs.lean ====
/-
  The three argument arrays end as launched: no host line writes one, the projection pipeline does not touch
  them, and the joint pipeline reads the encoder array through an input window (an input array is never written)
  and bypasses the other two. So the contents followed through the segments, read at an argument, walk back to
  the launch memory.
-/
import proofs.«176540_j25082609008778_2_alg».proof.Proof.KRun

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat RDat)

variable {F : FTy → Type} [FloatOps F]
variable (m : (ℓ : Loc nD τ sig) → Buf (Elt F) ℓ) (fgt : Fin cfg1.W → Bool)

/-- A buffer the first host stretch does not write keeps its launch contents; -/
theorem X1_of (c : Dev nD) (r : Ref sig .tc) (h : r ∉ hostOps0_W) :
    X1 m c (Proc.devRef .tc r) = m ((c : Thread nD τ).loc r) :=
  (StableHlo.after_of_writes_sub hostOps0 _ hostOps0_writes h).trans rfl
/-- one that is no array of the projection pipeline passes through it; -/
theorem X2_of (c : Dev nD) (r : Ref sig .tc) (h : r ∉ hostOps0_W) (hb : ∀ w, Pipeline.arrRef spec0 w ≠ r) :
    X2 m c (Proc.devRef .tc r) = m ((c : Thread nD τ).loc r) :=
  (X2_of_ne m c r hb).trans (X1_of m c r h)
/-- and one the second host stretch does not write passes through that. -/
theorem X3_of (c : Dev nD) (r : Ref sig .tc) (h : r ∉ hostOps1_W) :
    X3 m c (Proc.devRef .tc r) = X2 m c (Proc.devRef .tc r) :=
  StableHlo.after_of_writes_sub hostOps1 _ hostOps1_writes h

theorem X3_arg (c : Dev nD) (r : Ref sig .tc) (h1 : r ∉ hostOps1_W) (h0 : r ∉ hostOps0_W) (hb : ∀ w, Pipeline.arrRef spec0 w ≠ r) :
    X3 m c (Proc.devRef .tc r) = m ((c : Thread nD τ).loc r) :=
  (X3_of m c r h1).trans (X2_of m c r h0 hb)

/-- What the run ends with has every argument array as launched. -/
theorem args_of_QY (c : Dev nD) (s : MemSt nD τ sig (Elt F)) (h : QY m fgt c s) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2) := by
  obtain ⟨A, hA, hs⟩ := h
  refine ⟨?_, ?_, ?_⟩
  · refine (hs (Proc.devRef .tc main_arg0) (mem_uc main_arg0 (by decide))).trans ?_
    have h0 := hA 0
    rw [RDat.ArrAt_in _ 0 rfl] at h0
    refine (X4_arr m c A 0).trans (h0.trans ?_)
    exact X3_arg m c main_arg0 (by decide) (by decide) (by decide)
  · refine (hs (Proc.devRef .tc main_arg1) (mem_uc main_arg1 (by decide))).trans ?_
    exact (X4_of_ne m c A main_arg1 (by decide)).trans (X3_arg m c main_arg1 (by decide) (by decide) (by decide))
  · refine (hs (Proc.devRef .tc main_arg2) (mem_uc main_arg2 (by decide))).trans ?_
    exact (X4_of_ne m c A main_arg2 (by decide)).trans (X3_arg m c main_arg2 (by decide) (by decide) (by decide))

end Cert.Kernel.Hand

end
-- ==== Proof.KFrame.lean ====
/-
  The frame of the program as printed (the word-level instance): it runs to the end, nothing faults, and the
  three argument arrays end unchanged. What the joint kernel leaves in its output array is not followed here:
  past the encoder array's last row the staging buffer holds words nothing names, and at this instance the
  matrix product is a function of its whole operands, so the output window's staging contents are left unnamed
  (the window is forgotten); the frame does not read them.
-/
import proofs.«176540_j25082609008778_2_alg».proof.Proof.KArgs
import proofs.«176540_j25082609008778_2_alg».proof.Defs
import proofs.«176540_j25082609008778_2_alg».proof.Proof.Gen.Pre_finite_inputs

noncomputable section

namespace Cert.Kernel.Hand

open Cert.Kernel Cert.Kernel.Gen
open Idealize.ShloMosaic Idealize.ShloMosaic.TcCoe
open Idealize.SL Idealize.SL.Sem

theorem frame : Cert.frame_Kernel := fun m ρ _ =>
  (θ_run Cert.Kernel.defs _ _).mono (fun r h c => args_of_QY m fgtOut c r.2 (h c))
    (run_all (F := Bits) m ρ fgtOut (fun c => body_obligation1 (Y3 m) c))

end Cert.Kernel.Hand

end
-- ==== Proof.KIBody.lean ====
/-
  The two kernel bodies as separation-logic triples, and the proof data of the two pipelines, at any float
  instance.

  The projection kernel (one grid point) loads its two whole input blocks, multiplies them and stores the
  product over its whole output block. The joint kernel (grid 4 × 22) loads a 24-row block of the encoder
  array, the whole weight matrix and one batch slab of the projected decoder, and stores
  ⟦product row ⊕ decoder row⟧ over its whole output block. Neither body branches or keeps anything between
  points, so each triple is: the input buffers are read and kept, the output buffer ends at the payload of
  the one store.

  The joint kernel's first input and its output are cut at the array's end (512 rows in blocks of 24: the
  last block has 8 rows inside the array). For those windows the proof data name the staging contents only on
  the rows inside the array; past them the input buffer holds words nothing names, and what the body computes
  from them is never written back.
-/
import proofs.«176540_j25082609008778_2_alg».proof.Proof.Gen.KernelIdeal.Launch
import proofs.«176540_j25082609008778_2_alg».proof.Proof.Gen.KernelIdeal.Skeleton
import proofs.«176540_j25082609008778_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The accesses: every load and the store of either body is of a whole buffer -/

abbrev rA : Rect S400x512 := Rect.unit (s := S400x512) ![0, 0] S400x512.size inb_S400x512_S400x512_0_0
abbrev rW : Rect S512x1024 := Rect.unit (s := S512x1024) ![0, 0] S512x1024.size inb_S512x1024_S512x1024_0_0
abbrev rP : Rect S400x1024 := Rect.unit (s := S400x1024) ![0, 0] S400x1024.size inb_S400x1024_S400x1024_0_0
abbrev rE : Rect S1x24x512 := Rect.unit (s := S1x24x512) ![0, 0, 0] S1x24x512.size inb_S1x24x512_S1x24x512_0_0_0
abbrev rD : Rect S1x100x1024 := Rect.unit (s := S1x100x1024) ![0, 0, 0] S1x100x1024.size inb_S1x100x1024_S1x100x1024_0_0_0
abbrev rO : Rect S1x24x100x1024 := Rect.unit (s := S1x24x100x1024) ![0, 0, 0, 0] S1x24x100x1024.size inb_S1x24x100x1024_S1x24x100x1024_0_0_0_0

/-- What the projection body leaves in its output buffer, from what its two input buffers read. -/
def outP (x0 : Vec F S400x512 .f32) (x1 : Vec F S512x1024 .bf16) : Vec F S400x1024 .f32 :=
  View.canon [⟨rP, k0_pay1 (View.ld x0 rA) (View.ld x1 rW)⟩]

/-- What the joint body leaves in its output buffer, from what its three input buffers read. -/
def outJ (x0 : Vec F S1x24x512 .f32) (x1 : Vec F S512x1024 .bf16) (x2 : Vec F S1x100x1024 .f32) : Vec F S1x24x100x1024 .f32 :=
  View.canon [⟨rO, k1_pay1 (View.ld x0 rE) (View.ld x1 rW) (View.ld x2 rD)⟩]

theorem coverP (p0 : Vec F S400x1024 .f32) (y : S400x1024.Idx) :
    ∃ pc ∈ ([⟨rP, p0⟩] : List (View.Piece (Elt F) S400x1024 .f32)), y ∈ pc.1.set :=
  View.cover_of_tiled [⟨rP, p0⟩] S400x1024.size (by rfl) y

theorem coverJ (p0 : Vec F S1x24x100x1024 .f32) (y : S1x24x100x1024.Idx) :
    ∃ pc ∈ ([⟨rO, p0⟩] : List (View.Piece (Elt F) S1x24x100x1024 .f32)), y ∈ pc.1.set :=
  View.cover_of_tiled [⟨rO, p0⟩] S1x24x100x1024.size (by rfl) y

/-! ## The bodies' triples -/

set_option maxHeartbeats 1000000 in
/-- The projection body on whole staging memrefs: the inputs read and kept, the output left at the product. -/
theorem sound_proj (c : Dev nD) (E : Set ℕ) (i : grid0.Coords)
    (arg1 : Memref sig .tc .vmem S400x512 .f32) (harg1 : arg1.IsWhole)
    (arg2 : Memref sig .tc .vmem S512x1024 .bf16) (harg2 : arg2.IsWhole)
    (arg3 : Memref sig .tc .vmem S400x1024 .f32) (harg3 : arg3.IsWhole)
    (x0 : Vec F S400x512 .f32) (x1 : Vec F S512x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outP x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverP _)

set_option maxHeartbeats 1000000 in
/-- The joint body on whole staging memrefs: the inputs read and kept, the output left at the broadcast sum. -/
theorem sound_joint (c : Dev nD) (E : Set ℕ) (i : grid1.Coords)
    (arg2 : Memref sig .tc .vmem S1x24x512 .f32) (harg2 : arg2.IsWhole)
    (arg3 : Memref sig .tc .vmem S512x1024 .bf16) (harg3 : arg3.IsWhole)
    (arg4 : Memref sig .tc .vmem S1x100x1024 .f32) (harg4 : arg4.IsWhole)
    (arg5 : Memref sig .tc .vmem S1x24x100x1024 .f32) (harg5 : arg5.IsWhole)
    (x0 : Vec F S1x24x512 .f32) (x1 : Vec F S512x1024 .bf16) (x2 : Vec F S1x100x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outJ x0 x1 x2)) -∗ K ⟨⟩))
      ⊢ wp frame (wpE (defs₀ (F := F)) Variants.none c none) E (cc1__joint_kernel i arg2 harg2 arg3 harg3 arg4 harg4 arg5 harg5) K := by
  simp only [cc1__joint_kernel_eq_skeleton]; unfold cc1__joint_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverJ _)

end Cert.KernelIdeal.Hand

end
-- ==== Proof.KIData.lean ====
/-
  The proof data of the two pipelines at any float instance, over a parameter: the contents of the core's
  unscoped buffers when the pipeline is entered.

  Projection pipeline (one point): both inputs hold their whole arrays, the output ends at the product.
  Joint pipeline (4 × 22 points): the encoder block is fetched at every point, cut at the array's end; the weight
  matrix is fetched once and the decoder slab once per batch, and the body leaves both in place, so at every point
  they hold their blocks; the output block is written back at every point, cut like the encoder block. What the
  data name for the two cut windows is fixed on the rows inside the array only: past them the encoder buffer is
  filled out with a zero word the data pick and the machine need not hold.
-/
import proofs.«176540_j25082609008778_2_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The projection pipeline -/

/-- Window ⟦w⟧'s block at point ⟦t⟧, read off its array as the pipeline finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outP (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outP (iblk0 V c 0 t) (iblk0 V c 1 t) := by dsimp only [dat0]

/-- Each input buffer holds its block at the point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_proj c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! # The joint pipeline -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The encoder block at point ⟦t⟧ filled out to the staging buffer's 24 rows with a zero word. -/
def encBlk (c : Dev nD) (t : Fin cfg1.N) : S1x24x512.Idx → Elt F .f32 :=
  win1_0.fill (grid1.coords t) (fun _ => Scalar.ofBits .f32 0#32) (iblk1 V c 0 t)

def dat1 (c : Dev nD) : Dat τ (Elt F) Unit ℕ (UR sig nD τ) ℕ cfg1 c where
  A w := V c (Pipeline.arrRef spec1 w)
  after w t := match w with
    | ⟨0, _⟩ => encBlk V c t
    | ⟨1, _⟩ => iblk1 V c 1 t
    | ⟨2, _⟩ => iblk1 V c 2 t
    | ⟨3, _⟩ => outJ (encBlk V c t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = encBlk V c t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = outJ (encBlk V c t) (iblk1 V c 1 t) (iblk1 V c 2 t) := by dsimp only [dat1]

/-- The encoder buffer, fetched at every point: the block on the rows inside the array, anything past them. -/
theorem before1_0 (c : Dev nD) (t : Fin cfg1.N) (d) :
    (dat1 V c).before 0 t d = win1_0.fill (grid1.coords t) d (iblk1 V c 0 t) := by
  unfold Dat.before; rw [if_pos (fetch1_0 t)]; rfl
/-- The weight buffer and the decoder buffer hold their blocks at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- The output window, forgotten: the mask under which its staging contents are not named. -/
abbrev fgtOut : Fin cfg1.W → Bool := fun w => w.val == 3

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ X, owns (c : Thread nD τ) (st1_3 t) fullShare X))

def bodyPost1 (c : Dev nD) (t : Fin cfg1.N) : sProp 𝕄 :=
  iprop((dat1 V c).Φ t.succ ∗ (dat1 V c).owesAt () t.succ
    ∗ (∃ d, owns (c : Thread nD τ) (st1_0 t) fullShare (win1_0.fill (grid1.coords t) d (win1_0.cut (grid1.coords t) ((dat1 V c).after 0 t))))
    ∗ owns (c : Thread nD τ) (st1_1 t) fullShare ((dat1 V c).after 1 t)
    ∗ owns (c : Thread nD τ) (st1_2 t) fullShare ((dat1 V c).after 2 t)
    ∗ (∃ X, owns (c : Thread nD τ) (st1_3 t) fullShare X))

/-- The joint body at any point, the output buffer's contents not named. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩, ⟨%X3, H3⟩⟩
  iapply (sound_joint c Set.univ _ _ _ _ _ _ _ _ _ (win1_0.fill (grid1.coords t) d0 (iblk1 V c 0 t)) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [show win1_0.cut (grid1.coords t) (encBlk V c t) = iblk1 V c 0 t from win1_0.cut_fill _ _ _]
    iexact H0
  isplitl [H1]; · iexact H1
  isplitl [H2]; · iexact H2
  iexists _; iexact H3

theorem body_obligation1 (c : Dev nD) :
    BodyObligationLoose (dat1 (F := F) V c) (defs₀ (F := F)) Variants.none () Set.univ fgtOut := fun t => by
  rw [bigSep_W1, bigSep_W1]
  exact sound_body1 V c t

end Cert.KernelIdeal.Hand

end
-- ==== Proof.KIRun.lean ====
/-
  The run of the whole program at any float instance: host lines, the projection pipeline, one more host line,
  the joint pipeline. Every unscoped buffer's contents are followed from the launch memory through each
  segment: a host stretch applies its operations; the projection pipeline leaves its output array at what its
  one write-back wrote and everything else as found; the joint pipeline, the last segment, leaves its arrays at
  SOME contents they may hold after its 88 write-backs (an input array: as found) — which contents, for the
  output, is said by the proof data unless the output window is forgotten (the parameter ⟦fgt⟧).

  Every weakly fair execution terminates, nothing faults, and the final memory holds, at every unscoped buffer,
  the contents so followed. The three argument arrays are written by no host line and are inputs (or bypassed)
  in both pipelines, so they end as launched.
-/
import proofs.«176540_j25082609008778_2_alg».proof.Proof.KIData
import proofs.«176540_j25082609008778_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev X0 : Dev nD → Valuation τ sig (Elt F) := fun c b => m ((c : Dev nD), b)
/-- After the first host stretch (the projection pipeline's entry). -/
abbrev X1 : Dev nD → Valuation τ sig (Elt F) := fun c => StableHlo.after hostOps0 (X0 m c)
abbrev Y1 : (c : Dev nD) → (b : Ref sig .tc) → Buf (Elt F) ((c : Thread nD τ).loc b) := fun c b => X1 m c b
/-- At the projection pipeline's exit. -/
def X2 (c : Dev nD) : Valuation τ sig (Elt F) :=
  Pipeline.withArrays spec0 c (X1 m c) fun w => (dat0 (Y1 m) c).arrAt w cfg0.N
theorem X2_arr (c : Dev nD) (w : Fin cfg0.W) :
    X2 m c (Proc.devRef .tc (Pipeline.arrRef spec0 w)) = (dat0 (Y1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = X1 m c (Proc.devRef .tc b) := by
  unfold X2; exact Pipeline.withArrays_of_ne spec0 c _ _ b hb
abbrev Y2 : (c : Dev nD) → (b : Ref sig .tc) → Buf (Elt F) ((c : Thread nD τ).loc b) := fun c b => X2 m c b
theorem hF0 (c : Dev nD) (w : Fin cfg0.W) : (dat0 (Y1 m) c).arrAt w cfg0.N = Y2 m c (Pipeline.arrRef spec0 w) :=
  (X2_arr m c w).symm
theorem hrest0 (c : Dev nD) : ∀ b, b ∉ Finset.univ.image (Pipeline.arrRef spec0) → Y2 m c b = Y1 m c b :=
  fun b hb => X2_of_ne m c b fun w e => hb (Finset.mem_image.mpr ⟨w, Finset.mem_univ _, e⟩)
/-- After the second host stretch (the joint pipeline's entry). -/
abbrev X3 : Dev nD → Valuation τ sig (Elt F) := fun c => StableHlo.after hostOps1 (X2 m c)
abbrev Y3 : (c : Dev nD) → (b : Ref sig .tc) → Buf (Elt F) ((c : Thread nD τ).loc b) := fun c b => X3 m c b
/-- At the joint pipeline's exit, its arrays at contents ⟦A⟧. -/
def X4 (c : Dev nD) (A : (w : Fin cfg1.W) → Buf (Elt F) ((cfg1.win w).arr.view.loc (c : Thread nD τ))) : Valuation τ sig (Elt F) :=
  Pipeline.withArrays spec1 c (X3 m c) A
theorem X4_arr (c : Dev nD) (A) (w : Fin cfg1.W) :
    X4 m c A (Proc.devRef .tc (Pipeline.arrRef spec1 w)) = A w := by
  unfold X4; exact Pipeline.withArrays_arr spec1 launch1.win.arr_inj c _ _ w
theorem X4_of_ne (c : Dev nD) (A) (b : Ref sig .tc) (hb : ∀ w, Pipeline.arrRef spec1 w ≠ b) :
    X4 m c A (Proc.devRef .tc b) = X3 m c (Proc.devRef .tc b) := by
  unfold X4; exact Pipeline.withArrays_of_ne spec1 c _ _ b hb

/-! ## The proof data family and the thread state -/

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (Y1 m) c
  | ⟨1, _⟩ => fun c => dat1 (Y3 m) c

variable (fgt : Fin cfg1.W → Bool)

/-- The relational reading: the projection pipeline's data exactly, the joint pipeline's with the windows ⟦fgt⟧
    marks forgotten. -/
def rdats : (p : Fin 2) → (c : Dev nD) → RDat τ (Elt F) Unit ℕ (UR sig nD τ) ℕ (Pipeline.pin (pcfgs (F := F)) adm p) c
  | ⟨0, _⟩ => fun c => (dat0 (Y1 m) c).toR
  | ⟨1, _⟩ => fun c => (dat1 (Y3 m) c).toRForget fgt

abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state: the joint pipeline's arrays at some contents they may hold after every write-back,
    every other unscoped buffer as that pipeline found it; the generator register at some state. -/
abbrev Tₙ (c : Dev nD) : sProp 𝕄 :=
  iprop(∃ A : (w : Fin cfg1.W) → Buf (Elt F) ((cfg1.win w).arr.view.loc (c : Thread nD τ)),
    ⌜∀ w, (rdats m fgt 1 c).ArrAt w cfg1.N (A w)⌝ ∗ StableHlo.held (c : Thread nD τ) (Pipeline.ucRefs τ sig) (X4 m c A) ∗ ∃ r, prngReg c r)

/-! ## The pipelines as segments -/

set_option backward.isDefEq.respectTransparency.types false in
def reg0 : Pipeline.RDat.RegionSeg (pcfgs (F := F)) adm (rdats m fgt) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Y1 m) c).toR
  hwaits := Pipeline.RDat.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (Y1 m c)
  hentry c := by
    rw [Pipeline.ownSems0_none]
    have hsplit := Pipeline.RDat.arrays_of_unscopedBufs (p := 0) (pcfgs (F := F)) adm (rdats m fgt) launch0.win launch0.arr_whole c
      ((pdats m 0 c).share_full fun _ => rfl) (Y1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m fgt 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Y1 m c) (Y2 m c) ((pdats m 0 c).arrAt · cfg0.N) (hF0 m c) (hrest0 m c)
    rw [Pipeline.unscopedBufs_held] at hjoin
    rw [show (rdats m fgt 0 c).arraysAt (Pipeline.pin (pcfgs (F := F)) adm 0).N = ((pdats m 0 c).arrays ((pdats m 0 c).arrAt · cfg0.N) : sProp 𝕄)
      from (dat0 (Y1 m) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
def reg1 (hbody1 : ∀ c, BodyObligationLoose (dat1 (F := F) (Y3 m) c) (defs₀ (F := F)) Variants.none () Set.univ fgt) :
    Pipeline.RDat.RegionSeg (pcfgs (F := F)) adm (rdats m fgt) () defs₀ 𝒱₀ L lv 1 where
  win := launch1.win.to₀
  block_pos := launch1.block_pos
  stage_whole := launch1.stage_whole
  K := PEmpty
  osem k := k.elim
  ho := Pipeline.OwnSemFacts.none _
  hbody c := (hbody1 c).toRForget
  hwaits := Pipeline.RDat.hwaits_of_owed_zero _ _ _ _ L lv 1 fun _ _ => rfl
  pre c := iprop(StableHlo.held (c : Thread nD τ) (Pipeline.ucRefs τ sig) (X3 m c) ∗ R c)
  post c := iprop(Tₙ m fgt c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Y3 m c)
  hentry c := by
    rw [Pipeline.ownSems0_none]
    have hsplit := Pipeline.RDat.arrays_of_unscopedBufs (p := 1) (pcfgs (F := F)) adm (rdats m fgt) launch1.win launch1.arr_whole c
      ((pdats m 1 c).share_full fun _ => rfl) (Y3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m fgt 1 c).Φ (Fin.last _) = Pipeline.ΦA spec1 c from rfl]; unfold Pipeline.ΦA
    iintro ⟨Hr, Hp⟩
    isplitl [Hp]; · iexact Hp
    isplitr; · iempintro
    iexact Hr
  hexit c := by
    show iprop((rdats m fgt 1 c).arraysAt cfg1.N ∗ _ ∗ _ ∗ _) ⊢ _
    unfold Pipeline.RDat.arraysAt
    iintro ⟨Ha, HO, HY, Hrest⟩
    ihave Ha' := (BI.bigSep_exists_pi Finset.univ (fun (w : Fin cfg1.W) F => iprop(⌜(rdats m fgt 1 c).ArrAt w cfg1.N F⌝
        ∗ (cfg1.win w).arr.view.loc (c : Thread nD τ) ↦[(cfg1.win w).arr.view.set]{(rdats m fgt 1 c).share w} F))) $$ Ha
    icases Ha' with ⟨%A, Ha⟩
    ihave Ha2 := (BI.bigSep_pure_sep Finset.univ (fun w : Fin cfg1.W => (rdats m fgt 1 c).ArrAt w cfg1.N (A w))
        (fun w : Fin cfg1.W => (cfg1.win w).arr.view.loc (c : Thread nD τ) ↦[(cfg1.win w).arr.view.set]{(rdats m fgt 1 c).share w} A w)) $$ Ha
    icases Ha2 with ⟨%hA', Ha⟩
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Y3 m c) (fun b => X4 m c A b) A (fun w => (X4_arr m c A w).symm)
      (fun b hb => X4_of_ne m c A b fun w e => hb (Finset.mem_image.mpr ⟨w, Finset.mem_univ _, e⟩))
    rw [Pipeline.unscopedBufs_held] at hjoin
    imodintro
    isplitl [Ha Hrest HY]
    · iexists A
      isplitr; · ipureintro; exact fun w => hA' w (Finset.mem_univ w)
      isplitl [Ha Hrest]
      · ihave Ha3 := (show (bigSep Finset.univ fun w : Fin cfg1.W =>
              ((cfg1.win w).arr.view.loc (c : Thread nD τ) ↦[(cfg1.win w).arr.view.set]{(rdats m fgt 1 c).share w} A w : sProp 𝕄))
            ⊢ ((pdats m 1 c).arrays A : sProp 𝕄) from Entails.of_eq rfl) $$ Ha
        iapply hjoin; isplitl [Ha3]
        · iexact Ha3
        · iexact Hrest
      iexact HY
    unfold Pipeline.RDat.owesAt Pipeline.owesWithin
    icases HO with ⟨%W, -, HO⟩; iexists W; iexact HO

/-! ## The run -/

theorem hostOps0_fresh' : (hostOps0 : List (HloOp τ sig (Elt F))).Forall fun op => op.fresh = ∅ := hostOps0_fresh
theorem hostOps1_fresh' : (hostOps1 : List (HloOp τ sig (Elt F))).Forall fun op => op.fresh = ∅ := hostOps1_fresh

abbrev segs (hbody1 : ∀ c, BodyObligationLoose (dat1 (F := F) (Y3 m) c) (defs₀ (F := F)) Variants.none () Set.univ fgt) :
    List (Pipeline.RDat.Seg (pcfgs (F := F)) adm (rdats m fgt) () defs₀ 𝒱₀ L lv) :=
  [ .host (hseg hostOps0 hostOps0_sub hostOps0_fresh (X0 m)),
    .region (reg0 m fgt),
    .host (hseg hostOps1 hostOps1_sub hostOps1_fresh (X2 m)),
    .region (reg1 m fgt hbody1) ]

theorem main_run (hbody1) (c : Dev nD) : main (F := F) c = Pipeline.RDat.Seg.run (segs m fgt hbody1) :=
  (main_chain c).trans (by chain_rfl)

/-- What the run ends with on core ⟦c⟧: the joint pipeline's arrays at some contents they may hold after every
    write-back, every other unscoped buffer at the contents followed through the segments. -/
def QY (c : Dev nD) (s : MemSt nD τ sig (Elt F)) : Prop :=
  ∃ A : (w : Fin cfg1.W) → Buf (Elt F) ((cfg1.win w).arr.view.loc (c : Thread nD τ)),
    (∀ w, (rdats m fgt 1 c).ArrAt w cfg1.N (A w)) ∧ ∀ b ∈ Pipeline.ucRefs τ sig, s.mem (((c : Thread nD τ)).1, b) = X4 m c A b

set_option backward.isDefEq.respectTransparency.types false in
theorem run_all (hbody1 : ∀ c, BodyObligationLoose (dat1 (F := F) (Y3 m) c) (defs₀ (F := F)) Variants.none () Set.univ fgt) :
    θ_run defs (onTc (τ := τ) (main (F := F))) ⟨m, fun _ => 0, ρ⟩ (fun r => ∀ c : Dev nD, QY m fgt c r.2) :=
  Pipeline.RDat.θ_run_regions_kit (pcfgs (F := F)) adm (rdats m fgt) () cellOf_inj emb₁ defs₀ 𝒱₀ L lv m ρ main (segs m fgt hbody1)
    (fun c Q => by rw [main_run m fgt hbody1 c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c)) (Tₙ := Tₙ m fgt)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := QY m fgt)
    (hfin := fun c s' => by
      iintro ⟨⟨%A, %hA, Hh, -⟩, HSI⟩
      unfold StableHlo.held
      ihave Hr := (pointsTo_read_all (Pipeline.ucRefs τ sig) (fun b => (((c : Thread nD τ)).1, b)) (X4 m c A) s') $$ [Hh HSI]
      · isplitl [Hh] <;> iassumption
      icases Hr with ⟨%h, HSI⟩
      imodintro
      isplitr
      · ipureintro; exact ⟨A, hA, h⟩
      · iexact HSI)
    (hQ := fun s h c => h c)

end Cert.KernelIdeal.Hand

end
-- ==== Proof.KIArgs.lean ====
/-
  The three argument arrays end as launched: no host line writes one, the projection pipeline does not touch
  them, and the joint pipeline reads the encoder array through an input window (an input array is never written)
  and bypasses the other two. So the contents followed through the segments, read at an argument, walk back to
  the launch memory.
-/
import proofs.«176540_j25082609008778_2_alg».proof.Proof.KIRun

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat RDat)

variable {F : FTy → Type} [FloatOps F]
variable (m : (ℓ : Loc nD τ sig) → Buf (Elt F) ℓ) (fgt : Fin cfg1.W → Bool)

/-- A buffer the first host stretch does not write keeps its launch contents; -/
theorem X1_of (c : Dev nD) (r : Ref sig .tc) (h : r ∉ hostOps0_W) :
    X1 m c (Proc.devRef .tc r) = m ((c : Thread nD τ).loc r) :=
  (StableHlo.after_of_writes_sub hostOps0 _ hostOps0_writes h).trans rfl
/-- one that is no array of the projection pipeline passes through it; -/
theorem X2_of (c : Dev nD) (r : Ref sig .tc) (h : r ∉ hostOps0_W) (hb : ∀ w, Pipeline.arrRef spec0 w ≠ r) :
    X2 m c (Proc.devRef .tc r) = m ((c : Thread nD τ).loc r) :=
  (X2_of_ne m c r hb).trans (X1_of m c r h)
/-- and one the second host stretch does not write passes through that. -/
theorem X3_of (c : Dev nD) (r : Ref sig .tc) (h : r ∉ hostOps1_W) :
    X3 m c (Proc.devRef .tc r) = X2 m c (Proc.devRef .tc r) :=
  StableHlo.after_of_writes_sub hostOps1 _ hostOps1_writes h

theorem X3_arg (c : Dev nD) (r : Ref sig .tc) (h1 : r ∉ hostOps1_W) (h0 : r ∉ hostOps0_W) (hb : ∀ w, Pipeline.arrRef spec0 w ≠ r) :
    X3 m c (Proc.devRef .tc r) = m ((c : Thread nD τ).loc r) :=
  (X3_of m c r h1).trans (X2_of m c r h0 hb)

/-- What the run ends with has every argument array as launched. -/
theorem args_of_QY (c : Dev nD) (s : MemSt nD τ sig (Elt F)) (h : QY m fgt c s) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2) := by
  obtain ⟨A, hA, hs⟩ := h
  refine ⟨?_, ?_, ?_⟩
  · refine (hs (Proc.devRef .tc main_arg0) (mem_uc main_arg0 (by decide))).trans ?_
    have h0 := hA 0
    rw [RDat.ArrAt_in _ 0 rfl] at h0
    refine (X4_arr m c A 0).trans (h0.trans ?_)
    exact X3_arg m c main_arg0 (by decide) (by decide) (by decide)
  · refine (hs (Proc.devRef .tc main_arg1) (mem_uc main_arg1 (by decide))).trans ?_
    exact (X4_of_ne m c A main_arg1 (by decide)).trans (X3_arg m c main_arg1 (by decide) (by decide) (by decide))
  · refine (hs (Proc.devRef .tc main_arg2) (mem_uc main_arg2 (by decide))).trans ?_
    exact (X4_of_ne m c A main_arg2 (by decide)).trans (X3_arg m c main_arg2 (by decide) (by decide) (by decide))

end Cert.KernelIdeal.Hand

end
-- ==== Proof.Spec.lean ====
/-
  The joint network's output as ONE function of its three argument arrays, index by index.

  With an encoder array `enc : [4, 512, 512]`, a decoder array `dec : [4, 100, 512]` and a weight matrix
  `W : [1024, 1024]`, the result at `(b, t, u, c)` is

    (∑ k < 512, enc[b, t, k] · W[c, k]) + (∑ k < 512, dec[b, u, k] · W[c, 512 + k]),

  read in the extended reals. No program is imported here: only the shapes, the index constructors and the sum.
-/
import Idealize.ShloMosaic.PureOps.Ideal
import Idealize.ShloMosaic.Lib.ValueIdx

noncomputable section

open scoped BigOperators

namespace JointSpec

open Idealize.ShloMosaic Idealize.ShloMosaic.ValueIdx

/-- The encoder array's shape `[4, 512, 512]`. -/
abbrev S4x512x512 : Shape := ⟨3, ![4, 512, 512]⟩
/-- The decoder array's shape `[4, 100, 512]`. -/
abbrev S4x100x512 : Shape := ⟨3, ![4, 100, 512]⟩
/-- The weight matrix's shape `[1024, 1024]`. -/
abbrev S1024x1024 : Shape := ⟨2, ![1024, 1024]⟩
/-- The result's shape `[4, 512, 100, 1024]`. -/
abbrev S4x512x100x1024 : Shape := ⟨4, ![4, 512, 100, 1024]⟩

/-- Column `k` of the weight matrix's LEFT half: `k < 512` as a column below `1024`. -/
abbrev lo (k : Fin 512) : Fin 1024 := ⟨k.val, by have := k.isLt; omega⟩
/-- Column `512 + k` of the weight matrix: column `k` of its RIGHT half. -/
abbrev hi (k : Fin 512) : Fin 1024 := ⟨512 + k.val, by have := k.isLt; omega⟩

/-- The encoder's part at `(b, t, c)`: `∑ k, enc[b, t, k] · W[c, k]`. -/
def encPart (enc : S4x512x512.Idx → EReal) (W : S1024x1024.Idx → EReal) (b : Fin 4) (t : Fin 512) (c : Fin 1024) : EReal :=
  ∑ k : Fin 512, enc (ix3 b t k) * W (ix2 c (lo k))

/-- The decoder's part at `(b, u, c)`: `∑ k, dec[b, u, k] · W[c, 512 + k]`. -/
def decPart (dec : S4x100x512.Idx → EReal) (W : S1024x1024.Idx → EReal) (b : Fin 4) (u : Fin 100) (c : Fin 1024) : EReal :=
  ∑ k : Fin 512, dec (ix3 b u k) * W (ix2 c (hi k))

/-- THE RESULT, index by index: at `(b, t, u, c)` the encoder's part at `(b, t, c)` plus the decoder's part at `(b, u, c)`. -/
def G (enc : S4x512x512.Idx → EReal) (dec : S4x100x512.Idx → EReal) (W : S1024x1024.Idx → EReal) :
    S4x512x100x1024.Idx → EReal :=
  fun i => encPart enc W (i 0) (i 1) (i 3) + decPart dec W (i 0) (i 2) (i 3)

/-- `G` written out as the two sums. -/
theorem G_apply (enc : S4x512x512.Idx → EReal) (dec : S4x100x512.Idx → EReal) (W : S1024x1024.Idx → EReal)
    (i : S4x512x100x1024.Idx) :
    G enc dec W i = (∑ k : Fin 512, enc (@ix3 4 512 512 (i 0) (i 1) k) * W (@ix2 1024 1024 (i 3) (lo k)))
      + (∑ k : Fin 512, dec (@ix3 4 100 512 (i 0) (i 2) k) * W (@ix2 1024 1024 (i 3) (hi k))) := rfl

/-- `G` at an index given by its four coordinates. -/
theorem G_ix4 (enc : S4x512x512.Idx → EReal) (dec : S4x100x512.Idx → EReal) (W : S1024x1024.Idx → EReal)
    (b : Fin 4) (t : Fin 512) (u : Fin 100) (c : Fin 1024) :
    G enc dec W (ix4 b t u c) = (∑ k : Fin 512, enc (ix3 b t k) * W (ix2 c (lo k)))
      + (∑ k : Fin 512, dec (ix3 b u k) * W (ix2 c (hi k))) := rfl

end JointSpec

end
-- ==== Proof.LibRows.lean ====
/-
  Layout operations and lane sums read at an index written by coordinates.

  * A three-axis array [a, b, c] taken as the matrix [a·b, c] whose row p·b + k is the array's row (p, k), and back.
  * A matrix [a, c] given a middle unit axis and repeated b times along it: entry (p, k, q) is the matrix's (p, q).
  * A matrix [a, b] given a trailing unit axis and repeated c times along it: entry (p, k, q) is the matrix's (p, k).
  * A vector [a] given a trailing unit axis, and a column [a, 1] repeated c times along it: entry (p, q) is the vector's p.
  * Over the extended reals, a sum over the middle axis of [a, b, c] at (p, q) is Σ_k of the array at (p, k, q), and a sum
    over the last axis of [a, c] at p is Σ_q of the matrix at (p, q); both from the zero accumulator.
  Every statement is generic in the extents; the row number of the flattened matrix is passed with its equation.
-/
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

variable {α : Type}

/-- [a, b, c] as the matrix [n, c], n = a·b: the matrix's row r = p·b + k is the array's row (p, k). -/
theorem flatten_rows_apply {a b c n : Nat} (x : (⟨3, ![a, b, c]⟩ : Shape).Idx → α)
    (h : (⟨3, ![a, b, c]⟩ : Shape).ShapeCasts ⟨2, ![n, c]⟩) (p : Fin a) (k : Fin b) (q : Fin c) (r : Fin n)
    (hr : r.val = p.val * b + k.val) :
    shapeCast ⟨2, ![n, c]⟩ x h (ix2 r q) = x (ix3 p k q) :=
  shapeCast_apply x h _ _ (by
    rw [Shape.rowMajor_val_three, Shape.rowMajor_val_two]
    show (p.val * b + k.val) * c + q.val = r.val * c + q.val
    rw [hr])

/-- The matrix [n, c], n = a·b, as [a, b, c]: entry (p, k, q) is the matrix's row r = p·b + k at column q. -/
theorem unflatten_rows_apply {a b c n : Nat} (x : (⟨2, ![n, c]⟩ : Shape).Idx → α)
    (h : (⟨2, ![n, c]⟩ : Shape).ShapeCasts ⟨3, ![a, b, c]⟩) (p : Fin a) (k : Fin b) (q : Fin c) (r : Fin n)
    (hr : r.val = p.val * b + k.val) :
    shapeCast ⟨3, ![a, b, c]⟩ x h (ix3 p k q) = x (ix2 r q) :=
  shapeCast_apply x h _ _ (by
    rw [Shape.rowMajor_val_two, Shape.rowMajor_val_three]
    show r.val * c + q.val = (p.val * b + k.val) * c + q.val
    rw [hr])

/-- [a, c] given a middle unit axis. -/
theorem insert_mid_apply {a c : Nat} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_two, Shape.rowMajor_val_three]
    show p.val * c + q.val = (p.val * 1 + u.val) * c + q.val
    rw [hu, Nat.mul_one, Nat.add_zero])

/-- [a, 1, c] repeated along its middle axis. -/
theorem bcast_mid_apply {a b c : Nat} (x : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ x h (ix3 p k q) = x (ix3 p (0 : Fin 1) q) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else k.val; rw [if_pos rfl]
    | ⟨2, _⟩ => by
        show q.val = if c = 1 then 0 else q.val
        have := q.isLt
        split_ifs <;> omega)

/-- [a, b] given a trailing unit axis. -/
theorem append_unit_apply {a b : Nat} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_two, Shape.rowMajor_val_three]
    show p.val * b + k.val = (p.val * b + k.val) * 1 + u.val
    rw [hu, Nat.mul_one, Nat.add_zero])

/-- [a, b, 1] repeated along its last axis. -/
theorem bcast_last_apply {a b c : Nat} (x : (⟨3, ![a, b, 1]⟩ : Shape).Idx → α)
    (h : (⟨3, ![a, b, 1]⟩ : Shape).Broadcasts ⟨3, ![a, b, c]⟩) (p : Fin a) (k : Fin b) (q : Fin c) :
    broadcastTo ⟨3, ![a, b, c]⟩ x h (ix3 p k q) = x (ix3 p k (0 : Fin 1)) :=
  broadcastTo_apply x h _ _ (fun ax => match ax with
    | ⟨0, _⟩ => by
        show p.val = if a = 1 then 0 else p.val
        have := p.isLt
        split_ifs <;> omega
    | ⟨1, _⟩ => by
        show k.val = if b = 1 then 0 else k.val
        have := k.isLt
        split_ifs <;> omega
    | ⟨2, _⟩ => by show 0 = if (1 : Nat) = 1 then 0 else q.val; rw [if_pos rfl])

/-- A vector [a] as the column [a, 1]. -/
theorem col_cast_apply {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column [a, 1] repeated along its unit axis. -/
theorem bcast_col_apply {a c : Nat} (x : (⟨2, ![a, 1]⟩ : Shape).Idx → α)
    (h : (⟨2, ![a, 1]⟩ : Shape).Broadcasts ⟨2, ![a, c]⟩) (p : Fin a) (q : Fin c) :
    broadcastTo ⟨2, ![a, c]⟩ x h (ix2 p q) = x (ix2 p (0 : Fin 1)) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else q.val; rw [if_pos rfl])

/-- The sum over the middle axis of [a, b, c], from the zero accumulator, at (p, q). -/
theorem lane_sum_mid_apply {a b c : Nat} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (q : Fin c) :
    multiReduction .add [1] ⟨2, ![a, c]⟩ src 0x00000000#32 h hφ hacc (ix2 p q) = ∑ k : Fin b, src (ix3 p k q) := by
  refine (Ideal.multiReduction_add_single src 0x00000000#32 h hφ hacc (ix2 p q)).trans ?_
  exact Finset.sum_congr rfl fun k _ => congrArg src (funext fun ax => Fin.ext (by
    match ax with
    | ⟨0, _⟩ => rfl
    | ⟨1, _⟩ => rfl
    | ⟨2, _⟩ => rfl))

/-- The sum over the last axis of [a, c], from the zero accumulator, at p. -/
theorem lane_sum_last_apply {a c : Nat} (src : FVec Ideal ⟨2, ![a, c]⟩ .f32)
    (h : (⟨2, ![a, c]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ q : Fin c, src (ix2 p q) := by
  refine (Ideal.multiReduction_add_single src 0x00000000#32 h hφ hacc (ix1 p)).trans ?_
  exact Finset.sum_congr rfl fun q _ => congrArg src (funext fun ax => Fin.ext (by
    match ax with
    | ⟨0, _⟩ => rfl
    | ⟨1, _⟩ => rfl))

end Cert.LibRows

end
-- ==== Proof.HostAt.lean ====
/-
  The kernel program's host stages, read at one entry, over the extended reals.

  Before the two kernels run, the host cuts the weight matrix `W : [1024, 1024]` into its left and right halves
  `[1024, 512]`, transposes each to `[512, 1024]` and changes its float format; it takes the decoder array
  `[4, 100, 512]` as the matrix `[400, 512]`; and between the kernels it takes the projected matrix `[400, 1024]`
  as `[4, 100, 1024]`. At an entry:
  * the left weight block at `(k, q)` is `W[q, k]`, the right one `W[q, 512 + k]`;
  * row `b · 100 + u` of the `[400, ·]` matrix is row `(b, u)` of the `[4, 100, ·]` array, both ways.
  A change of float format is the identity on extended reals.
-/
import proofs.«176540_j25082609008778_2_alg».proof.KernelIdeal
import proofs.«176540_j25082609008778_2_alg».proof.Proof.Spec
import proofs.«176540_j25082609008778_2_alg».proof.Proof.LibRows
import Idealize.ShloMosaic.Lib.ValueLayout
import Idealize.ShloMosaic.Lib.Pipeline.Value

noncomputable section

namespace Cert.KernelIdeal.HostAt

open Cert.KernelIdeal Cert.KernelIdeal.Facts₀ Idealize.ShloMosaic Idealize.ShloMosaic.ValueIdx

variable [Facts₀]

/-- Row `(b, u)` of a `[4, 100, ·]` array as a row number below `400`: `b · 100 + u`. -/
abbrev row (b : Fin 4) (u : Fin 100) : Fin 400 := ⟨b.val * 100 + u.val, by have := b.isLt; have := u.isLt; omega⟩

/-- THE LEFT WEIGHT BLOCK: the left half of `W`, transposed, in the narrower format, at `(k, q)` is `W[q, k]`. -/
theorem wLeft_apply (a : Vec Ideal S1024x1024 .f32) (k : Fin 512) (q : Fin 1024) :
    (truncf (F := Ideal) .bf16 (transpose S512x1024 [1, 0]
        (extractStridedSlice S1024x512 ![0, 0] a slices_S1024x1024_S1024x512_0_0)
        transposes_S1024x512_S512x1024_1_0) bitsLt_bf16_f32) (ix2 k q)
      = a (ix2 q (JointSpec.lo k)) := by
  refine (truncf_apply _ bitsLt_bf16_f32 (ix2 k q)).trans ?_
  refine (transpose_ix2_apply _ transposes_S1024x512_S512x1024_1_0 k q).trans ?_
  exact slice2_axis1_apply 0 a slices_S1024x1024_S1024x512_0_0 q k (JointSpec.lo k) (Nat.zero_add _).symm

/-- THE RIGHT WEIGHT BLOCK: the right half of `W`, transposed, in the narrower format, at `(k, q)` is `W[q, 512 + k]`. -/
theorem wRight_apply (a : Vec Ideal S1024x1024 .f32) (k : Fin 512) (q : Fin 1024) :
    (truncf (F := Ideal) .bf16 (transpose S512x1024 [1, 0]
        (extractStridedSlice S1024x512 ![0, 512] a slices_S1024x1024_S1024x512_0_512)
        transposes_S1024x512_S512x1024_1_0) bitsLt_bf16_f32) (ix2 k q)
      = a (ix2 q (JointSpec.hi k)) := by
  refine (truncf_apply _ bitsLt_bf16_f32 (ix2 k q)).trans ?_
  refine (transpose_ix2_apply _ transposes_S1024x512_S512x1024_1_0 k q).trans ?_
  exact slice2_axis1_apply 512 a slices_S1024x1024_S1024x512_0_512 q k (JointSpec.hi k) rfl

/-- THE DECODER ARRAY AS A MATRIX: row `b · 100 + u` of `[400, 512]` is row `(b, u)` of `[4, 100, 512]`. -/
theorem decFlat_apply {α : Type} (v : S4x100x512.Idx → α) (b : Fin 4) (u : Fin 100) (k : Fin 512) :
    shapeCast S400x512 v shapeCasts_S4x100x512_S400x512 (ix2 (row b u) k) = v (ix3 b u k) :=
  Cert.LibRows.flatten_rows_apply v shapeCasts_S4x100x512_S400x512 b u k (row b u) rfl

/-- The same with the row number passed with its equation. -/
theorem decFlat_apply' {α : Type} (v : S4x100x512.Idx → α) (b : Fin 4) (u : Fin 100) (k : Fin 512) (r : Fin 400)
    (hr : r.val = b.val * 100 + u.val) :
    shapeCast S400x512 v shapeCasts_S4x100x512_S400x512 (ix2 r k) = v (ix3 b u k) :=
  Cert.LibRows.flatten_rows_apply v shapeCasts_S4x100x512_S400x512 b u k r hr

/-- THE PROJECTED MATRIX AS AN ARRAY: entry `(b, u, q)` of `[4, 100, 1024]` is row `b · 100 + u` of `[400, 1024]` at `q`. -/
theorem projUnflat_apply {α : Type} (v : S400x1024.Idx → α) (b : Fin 4) (u : Fin 100) (q : Fin 1024) :
    shapeCast S4x100x1024 v shapeCasts_S400x1024_S4x100x1024 (ix3 b u q) = v (ix2 (row b u) q) :=
  Cert.LibRows.unflatten_rows_apply v shapeCasts_S400x1024_S4x100x1024 b u q (row b u) rfl

/-- The same with the row number passed with its equation. -/
theorem projUnflat_apply' {α : Type} (v : S400x1024.Idx → α) (b : Fin 4) (u : Fin 100) (q : Fin 1024) (r : Fin 400)
    (hr : r.val = b.val * 100 + u.val) :
    shapeCast S4x100x1024 v shapeCasts_S400x1024_S4x100x1024 (ix3 b u q) = v (ix2 r q) :=
  Cert.LibRows.unflatten_rows_apply v shapeCasts_S400x1024_S4x100x1024 b u q r hr

end Cert.KernelIdeal.HostAt

end
-- ==== Proof.KIHost.lean ====
/-
  What the host lines put in the buffers the two pipelines read, at the exact instance, index by index:
  the two halves of the weight matrix transposed (the change of float format is the identity here), the
  decoder array with its two leading axes merged into rows, and the projected decoder with its rows split back
  into (batch, position).
-/
import proofs.«176540_j25082609008778_2_alg».proof.Proof.KIArgs
import proofs.«176540_j25082609008778_2_alg».proof.Proof.HostAt
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat RDat)

variable (m : (ℓ : Loc nD τ sig) → Buf (Elt Ideal) ℓ)

/-- The launch contents of the three arguments, as plain arrays of extended reals. -/
abbrev encA (c : Dev nD) : S4x512x512.Idx → EReal := m ((c : Thread nD τ).loc main_arg0)
abbrev decA (c : Dev nD) : S4x100x512.Idx → EReal := m ((c : Thread nD τ).loc main_arg1)
abbrev wA (c : Dev nD) : S1024x1024.Idx → EReal := m ((c : Thread nD τ).loc main_arg2)

theorem X1_v2 (c : Dev nD) : (X1 m c (Proc.devRef .tc main_v2) : S512x1024.Idx → Elt Ideal .bf16)
    = truncf (F := Ideal) .bf16 (transpose S512x1024 [1, 0] (extractStridedSlice S1024x512 ![0, 0] (wA m c)
        Facts₀.slices_S1024x1024_S1024x512_0_0) Facts₀.transposes_S1024x512_S512x1024_1_0) Facts₀.bitsLt_bf16_f32 := by
  show StableHlo.after hostOps0 (fun b => m (c, b)) (Proc.devRef .tc main_v2) = _
  after_results

theorem X1_v5 (c : Dev nD) : (X1 m c (Proc.devRef .tc main_v5) : S512x1024.Idx → Elt Ideal .bf16)
    = truncf (F := Ideal) .bf16 (transpose S512x1024 [1, 0] (extractStridedSlice S1024x512 ![0, 512] (wA m c)
        Facts₀.slices_S1024x1024_S1024x512_0_512) Facts₀.transposes_S1024x512_S512x1024_1_0) Facts₀.bitsLt_bf16_f32 := by
  show StableHlo.after hostOps0 (fun b => m (c, b)) (Proc.devRef .tc main_v5) = _
  after_results

theorem X1_v6 (c : Dev nD) : (X1 m c (Proc.devRef .tc main_v6) : S400x512.Idx → Elt Ideal .f32)
    = shapeCast S400x512 (decA m c) Facts₀.shapeCasts_S4x100x512_S400x512 := by
  show StableHlo.after hostOps0 (fun b => m (c, b)) (Proc.devRef .tc main_v6) = _
  after_results
  rfl

theorem X3_v8 (c : Dev nD) : (X3 m c (Proc.devRef .tc main_v8) : S4x100x1024.Idx → Elt Ideal .f32)
    = shapeCast S4x100x1024 (X2 m c (Proc.devRef .tc main_v7) : S400x1024.Idx → Elt Ideal .f32) Facts₀.shapeCasts_S400x1024_S4x100x1024 := by
  show StableHlo.after hostOps1 (X2 m c) (Proc.devRef .tc main_v8) = _
  after_results
  rfl

/-- The joint pipeline's weight operand: entry (k, q) is W[q, k]. -/
theorem Y3_v2_apply (c : Dev nD) (k : Fin 512) (q : Fin 1024) :
    (Y3 m c main_v2 : S512x1024.Idx → Elt Ideal .bf16) (ix2 k q) = wA m c (ix2 q (JointSpec.lo k)) := by
  have e : (Y3 m c main_v2 : S512x1024.Idx → Elt Ideal .bf16) = X1 m c (Proc.devRef .tc main_v2) :=
    (X3_of m c main_v2 (by decide)).trans (X2_of_ne m c main_v2 (by decide))
  rw [e, X1_v2]
  exact HostAt.wLeft_apply _ k q

/-- The projection pipeline's weight operand: entry (k, q) is W[q, 512 + k]. -/
theorem Y1_v5_apply (c : Dev nD) (k : Fin 512) (q : Fin 1024) :
    (Y1 m c main_v5 : S512x1024.Idx → Elt Ideal .bf16) (ix2 k q) = wA m c (ix2 q (JointSpec.hi k)) := by
  show (X1 m c (Proc.devRef .tc main_v5) : S512x1024.Idx → Elt Ideal .bf16) (ix2 k q) = _
  rw [X1_v5]
  exact HostAt.wRight_apply _ k q

/-- The projection pipeline's left operand: row b·100 + u is the decoder's row (b, u). -/
theorem Y1_v6_apply (c : Dev nD) (b : Fin 4) (u : Fin 100) (k : Fin 512) :
    (Y1 m c main_v6 : S400x512.Idx → Elt Ideal .f32) (ix2 (HostAt.row b u) k) = decA m c (ix3 b u k) := by
  show (X1 m c (Proc.devRef .tc main_v6) : S400x512.Idx → Elt Ideal .f32) (ix2 (HostAt.row b u) k) = _
  rw [X1_v6]
  exact HostAt.decFlat_apply _ b u k

/-- The joint pipeline's decoder operand: entry (b, u, q) is row b·100 + u of the projection pipeline's result. -/
theorem Y3_v8_apply (c : Dev nD) (b : Fin 4) (u : Fin 100) (q : Fin 1024) :
    (Y3 m c main_v8 : S4x100x1024.Idx → Elt Ideal .f32) (ix3 b u q)
      = ((dat0 (Y1 m) c).arrAt 2 cfg0.N : S400x1024.Idx → Elt Ideal .f32) (ix2 (HostAt.row b u) q) := by
  show (X3 m c (Proc.devRef .tc main_v8) : S4x100x1024.Idx → Elt Ideal .f32) (ix3 b u q) = _
  rw [X3_v8, HostAt.projUnflat_apply]
  exact congrFun (X2_arr m c 2) _

theorem Y3_arg0 (c : Dev nD) : (Y3 m c main_arg0 : S4x512x512.Idx → Elt Ideal .f32) = encA m c :=
  X3_arg m c main_arg0 (by decide) (by decide) (by decide)

end Cert.KernelIdeal.Hand

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.PayAt.lean ====
/-
  The two kernel bodies' arithmetic, read at one entry, over the extended reals.

  * The projection body multiplies a `400 × 512` block by a `512 × 1024` weight block into the zero matrix: at
    `(p, q)` its value is  ∑ k, x[p, k] · w[k, q].
  * The joint body multiplies a `24 × 512` block of encoder rows by the `512 × 1024` weight block, repeats the product
    along a new middle axis of length `100`, repeats the `100 × 1024` projected decoder block along a new leading axis
    of length `24`, and adds: at `(0, r, u, q)` its value is  (∑ k, x[0, r, k] · w[k, q]) + d[0, u, q].
    In particular the value at row `r` depends on the encoder block only through its row `r`.
  A change of float format is the identity on extended reals and a re-laying of the same shape is the identity.
-/
import proofs.«176540_j25082609008778_2_alg».proof.Proof.Gen.KernelIdeal.Skeleton
import proofs.«176540_j25082609008778_2_alg».proof.Proof.LibMatmulPlain
import proofs.«176540_j25082609008778_2_alg».proof.Proof.LibRows
import Idealize.ShloMosaic.Lib.ValueLayout
import Idealize.ShloMosaic.Lib.Pipeline.Value

noncomputable section

open scoped BigOperators

namespace Cert.KernelIdeal.PayAt

open Cert.KernelIdeal Cert.KernelIdeal.Facts₀ Idealize.ShloMosaic Idealize.ShloMosaic.ValueIdx

/-- A `[1, b, c]` array repeated along its leading axis reads, at `(p, k, q)`, its one slab at `(k, q)`. -/
theorem bcast_lead_apply {α : Type} {a b c : Nat} (x : (⟨3, ![1, b, c]⟩ : Shape).Idx → α)
    (h : (⟨3, ![1, b, c]⟩ : Shape).Broadcasts ⟨3, ![a, b, c]⟩) (p : Fin a) (k : Fin b) (q : Fin c) :
    broadcastTo ⟨3, ![a, b, c]⟩ x h (ix3 p k q) = x (ix3 (0 : Fin 1) k q) :=
  broadcastTo_apply x h _ _ (fun ax => match ax with
    | ⟨0, _⟩ => by show 0 = if (1 : Nat) = 1 then 0 else p.val; rw [if_pos rfl]
    | ⟨1, _⟩ => by
        show k.val = if b = 1 then 0 else k.val
        have := k.isLt
        split_ifs <;> omega
    | ⟨2, _⟩ => by
        show q.val = if c = 1 then 0 else q.val
        have := q.isLt
        split_ifs <;> omega)

/-- THE PROJECTION BODY AT AN ENTRY: `∑ k, x[p, k] · w[k, q]`. -/
theorem k0_pay1_apply (x : Vec Ideal S400x512 .f32) (w : Vec Ideal S512x1024 .bf16) (p : Fin 400) (q : Fin 1024) :
    Gen.k0_pay1 (F := Ideal) x w (ix2 p q) = ∑ k : Fin 512, x (ix2 p k) * w (ix2 k q) := by
  unfold Gen.k0_pay1
  refine (Cert.LibMatmulPlain.matmul_plain_zero_apply dot_S400x512_S512x1024_S400x1024_1_0_0_1_n_n rfl none _ _ p q).trans ?_
  refine Finset.sum_congr rfl fun k _ => ?_
  refine congrArg₂ (· * ·) ?_ ?_
  · exact congrFun (shapeCast_self x shapeCasts_S400x512_S400x512) (ix2 p k)
  · exact congrFun (shapeCast_self w shapeCasts_S512x1024_S512x1024) (ix2 k q)

/-- THE JOINT BODY AT AN ENTRY: `(∑ k, x[0, r, k] · w[k, q]) + d[0, u, q]`. -/
theorem k1_pay1_apply (x : Vec Ideal S1x24x512 .f32) (w : Vec Ideal S512x1024 .bf16) (d : Vec Ideal S1x100x1024 .f32)
    (r : Fin 24) (u : Fin 100) (q : Fin 1024) :
    Gen.k1_pay1 (F := Ideal) x w d (ix4 (0 : Fin 1) r u q)
      = (∑ k : Fin 512, x (ix3 (0 : Fin 1) r k) * w (ix2 k q)) + d (ix3 (0 : Fin 1) u q) := by
  unfold Gen.k1_pay1
  refine (shapeCast_abc_1abc_apply _ shapeCasts_S24x100x1024_S1x24x100x1024 (0 : Fin 1) r u q).trans ?_
  refine (addf_apply _ _ _).trans ?_
  refine congrArg₂ (· + ·) ?_ ?_
  · refine (Cert.LibRows.bcast_mid_apply _ broadcasts_S24x1x1024_S24x100x1024 r u q).trans ?_
    refine (Cert.LibRows.insert_mid_apply _ shapeCasts_S24x1024_S24x1x1024 r (0 : Fin 1) q).trans ?_
    refine (Cert.LibMatmulPlain.matmul_plain_zero_apply dot_S24x512_S512x1024_S24x1024_1_0_0_1_n_n rfl none _ _ r q).trans ?_
    refine Finset.sum_congr rfl fun k _ => ?_
    refine congrArg₂ (· * ·) ?_ ?_
    · exact shapeCast_1ab_ab_apply x shapeCasts_S1x24x512_S24x512 r k
    · exact congrFun (shapeCast_self w shapeCasts_S512x1024_S512x1024) (ix2 k q)
  · refine (bcast_lead_apply _ broadcasts_S1x100x1024_S24x100x1024 r u q).trans ?_
    refine (shapeCast_ab_1ab_apply _ shapeCasts_S100x1024_S1x100x1024 (0 : Fin 1) u q).trans ?_
    exact shapeCast_1ab_ab_apply d shapeCasts_S1x100x1024_S100x1024 u q

/-- The joint body's value at row `r` depends on the encoder block only through its row `r`. -/
theorem k1_pay1_congr_row (x x' : Vec Ideal S1x24x512 .f32) (w : Vec Ideal S512x1024 .bf16) (d : Vec Ideal S1x100x1024 .f32)
    (r : Fin 24) (u : Fin 100) (q : Fin 1024)
    (hx : ∀ k : Fin 512, x (ix3 (0 : Fin 1) r k) = x' (ix3 (0 : Fin 1) r k)) :
    Gen.k1_pay1 (F := Ideal) x w d (ix4 (0 : Fin 1) r u q) = Gen.k1_pay1 (F := Ideal) x' w d (ix4 (0 : Fin 1) r u q) := by
  rw [k1_pay1_apply, k1_pay1_apply]
  exact congrArg (· + d (ix3 (0 : Fin 1) u q)) (Finset.sum_congr rfl fun k _ => by rw [hx k])

end Cert.KernelIdeal.PayAt

end
-- ==== Proof.KIValue.lean ====
/-
  The joint pipeline's output array, over the extended reals.

  The joint body's output block is the body's arithmetic of its three input blocks. The encoder window and the output
  window are cut alike at the array's end (512 rows in blocks of 24: the last block keeps 8 rows), so a row of the
  output block that lies inside the array depends only on the encoder row with the same number, which lies inside
  the array too: what fills the encoder buffer past the array's end never reaches what is written back. Point by
  point, what is written back is the point's block of ONE function of the arrays, and the blocks cover the array.
-/
import proofs.«176540_j25082609008778_2_alg».proof.Proof.KIData
import proofs.«176540_j25082609008778_2_alg».proof.Proof.PayAt
import proofs.«176540_j25082609008778_2_alg».proof.Proof.HostAt
import proofs.«176540_j25082609008778_2_alg».proof.Proof.Spec
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

/-! ## The output blocks are the bodies' arithmetic -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section AnyF
variable {F : FTy → Type} [FloatOps F]

/-- One store over the whole output block of whole loads: the projection body's arithmetic of its input blocks. -/
theorem outP_eq (x0 : Vec F S400x512 .f32) (x1 : Vec F S512x1024 .bf16) : outP x0 x1 = k0_pay1 x0 x1 := by
  unfold outP
  rw [View.canon_unit_zero hz2, View.ld_unit_zero (S := S400x512) hz2, View.ld_unit_zero (S := S512x1024) hz2]

/-- One store over the whole output block of whole loads: the joint body's arithmetic of its input blocks. -/
theorem outJ_eq (x0 : Vec F S1x24x512 .f32) (x1 : Vec F S512x1024 .bf16) (x2 : Vec F S1x100x1024 .f32) :
    outJ x0 x1 x2 = k1_pay1 x0 x1 x2 := by
  unfold outJ
  rw [View.canon_unit_zero hz4, View.ld_unit_zero (S := S1x24x512) hz3, View.ld_unit_zero (S := S512x1024) hz2,
    View.ld_unit_zero (S := S1x100x1024) hz3]

end AnyF

/-! ## The two cut windows are cut alike -/

/-- Over the grid: the encoder window and the output window keep the same number of rows at every point, and
    neither is cut on another axis. -/
theorem cut_facts : ∀ t : Fin cfg1.N,
    win1_0.xsize (grid1.coords t) (1 : Fin 3) = win1_3.xsize (grid1.coords t) (1 : Fin 4)
    ∧ win1_0.xsize (grid1.coords t) (0 : Fin 3) = 1 ∧ win1_0.xsize (grid1.coords t) (2 : Fin 3) = 512
    ∧ win1_3.xsize (grid1.coords t) (0 : Fin 4) = 1 ∧ win1_3.xsize (grid1.coords t) (2 : Fin 4) = 100
    ∧ win1_3.xsize (grid1.coords t) (3 : Fin 4) = 1024 :=
  (by decide +kernel : ∀ t : Fin grid1.N,
    win1_0.xsize (grid1.coords t) (1 : Fin 3) = win1_3.xsize (grid1.coords t) (1 : Fin 4)
    ∧ win1_0.xsize (grid1.coords t) (0 : Fin 3) = 1 ∧ win1_0.xsize (grid1.coords t) (2 : Fin 3) = 512
    ∧ win1_3.xsize (grid1.coords t) (0 : Fin 4) = 1 ∧ win1_3.xsize (grid1.coords t) (2 : Fin 4) = 100
    ∧ win1_3.xsize (grid1.coords t) (3 : Fin 4) = 1024)

/-- Two fillings of a block with the same moved part agree on the moved part. -/
theorem fill_congr_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- A row of the encoder block below the output block's cut is moved by the encoder window's transfer. -/
theorem moved_row (t : Fin cfg1.N) (r : Fin 24) (hr : r.val < win1_3.xsize (grid1.coords t) (1 : Fin 4)) (k : Fin 512) :
    win1_0.moved (grid1.coords t) (ix3 (0 : Fin 1) r k : S1x24x512.Idx) = true := by
  obtain ⟨e1, e0, e2, -⟩ := cut_facts t
  refine (win1_0.moved_iff (grid1.coords t) _).mpr fun a => ?_
  match a with
  | ⟨0, _⟩ => show 0 < win1_0.xsize (grid1.coords t) (0 : Fin 3); rw [e0]; exact Nat.one_pos
  | ⟨1, _⟩ => show r.val < win1_0.xsize (grid1.coords t) (1 : Fin 3); rw [e1]; exact hr
  | ⟨2, _⟩ => show k.val < win1_0.xsize (grid1.coords t) (2 : Fin 3); rw [e2]; exact k.isLt

/-- WHAT IS WRITTEN BACK DOES NOT SEE THE FILLER: the output block's part inside the array is the same whatever fills
    the encoder buffer past the array's end. -/
theorem cut_outJ_congr (t : Fin cfg1.N) (d d' : S1x24x512.Idx → Elt Ideal .f32)
    (g : (win1_0.xblock (grid1.coords t)).Idx → Elt Ideal .f32) (w : Vec Ideal S512x1024 .bf16) (x2 : Vec Ideal S1x100x1024 .f32) :
    win1_3.cut (grid1.coords t) (outJ (F := Ideal) (win1_0.fill (grid1.coords t) d g) w x2)
      = win1_3.cut (grid1.coords t) (outJ (F := Ideal) (win1_0.fill (grid1.coords t) d' g) w x2) := by
  have key : ∀ X : S1x24x100x1024.Idx, (∀ a : Fin 4, (X a).val < win1_3.xsize (grid1.coords t) a) →
      outJ (F := Ideal) (win1_0.fill (grid1.coords t) d g) w x2 X
        = outJ (F := Ideal) (win1_0.fill (grid1.coords t) d' g) w x2 X := by
    intro X hX
    obtain ⟨z, r, u, q, rfl⟩ : ∃ (z : Fin 1) (r : Fin 24) (u : Fin 100) (q : Fin 1024), X = ix4 z r u q :=
      ⟨X 0, X 1, X 2, X 3, eq_ix4 X⟩
    obtain rfl : z = 0 := Subsingleton.elim _ _
    rw [outJ_eq, outJ_eq]
    exact PayAt.k1_pay1_congr_row _ _ w x2 r u q fun k =>
      fill_congr_moved win1_0 (grid1.coords t) d d' g _ (moved_row t r (hX 1) k)
  funext j
  exact key (win1_3.xinj (grid1.coords t) j) fun a => (j a).isLt

end Cert.KernelIdeal.Hand

end
-- ==== Proof.KIExact.lean ====
/-
  The joint body's obligation at the exact instance with NO window forgotten: what it leaves in the output
  buffer agrees, on the rows inside the array, with the broadcast sum computed from the encoder block filled
  out with zeros — whatever words the buffer held past the encoder array's last row, because an output row
  depends on its own encoder row only.
-/
import proofs.«176540_j25082609008778_2_alg».proof.Proof.KIValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

/-- The output window is never fetched. -/
theorem fetch1_3 : ∀ t : Fin cfg1.N, (cfg1.win 3).fetch t = false :=
  (by decide +kernel : ∀ t : Fin grid1.N, win1_3.fetch t = false)

/-- The output buffer as the body finds it: written back at the point before (or never filled), so at contents
    nothing names. -/
theorem before1_3 (c : Dev nD) (t : Fin cfg1.N) (d) : (dat1 (F := Ideal) V c).before 3 t d = d := by
  unfold Dat.before
  rw [if_neg (by rw [fetch1_3 t]; exact Bool.false_ne_true)]
  by_cases h0 : t.val = 0
  · rw [if_pos h0]
  · rw [if_neg h0]; exact if_pos (flush1_3 _)

def bodyPre1x (c : Dev nD) (t : Fin cfg1.N) : sProp 𝕄 :=
  iprop((dat1 (F := Ideal) V c).Φ t.castSucc ∗ (dat1 (F := Ideal) V c).owesAt () t.castSucc
    ∗ (∃ d, owns (c : Thread nD τ) (st1_0 t) fullShare ((dat1 (F := Ideal) V c).before 0 t d))
    ∗ (∃ d, owns (c : Thread nD τ) (st1_1 t) fullShare ((dat1 (F := Ideal) V c).before 1 t d))
    ∗ (∃ d, owns (c : Thread nD τ) (st1_2 t) fullShare ((dat1 (F := Ideal) V c).before 2 t d))
    ∗ (∃ d, owns (c : Thread nD τ) (st1_3 t) fullShare ((dat1 (F := Ideal) V c).before 3 t d)))

def bodyPost1x (c : Dev nD) (t : Fin cfg1.N) : sProp 𝕄 :=
  iprop((dat1 (F := Ideal) V c).Φ t.succ ∗ (dat1 (F := Ideal) V c).owesAt () t.succ
    ∗ (∃ d, owns (c : Thread nD τ) (st1_0 t) fullShare (win1_0.fill (grid1.coords t) d (win1_0.cut (grid1.coords t) ((dat1 (F := Ideal) V c).after 0 t))))
    ∗ owns (c : Thread nD τ) (st1_1 t) fullShare ((dat1 (F := Ideal) V c).after 1 t)
    ∗ owns (c : Thread nD τ) (st1_2 t) fullShare ((dat1 (F := Ideal) V c).after 2 t)
    ∗ (∃ d, owns (c : Thread nD τ) (st1_3 t) fullShare (win1_3.fill (grid1.coords t) d (win1_3.cut (grid1.coords t) ((dat1 (F := Ideal) V c).after 3 t)))))

theorem sound_body1x (c : Dev nD) (t : Fin cfg1.N) :
    bodyPre1x V c t ⊢ wp frame (wpE (defs₀ (F := Ideal)) Variants.none c none) Set.univ (bodyAt1 t) (fun _ => bodyPost1x V c t) := by
  unfold bodyPre1x bodyPost1x bodyAt1
  simp only [before1_0, before1_1, before1_2, before1_3]
  rw [show (dat1 (F := Ideal) V c).Φ t.succ = (dat1 (F := Ideal) V c).Φ t.castSucc from rfl,
    show (dat1 (F := Ideal) V c).owesAt () t.succ = (dat1 (F := Ideal) V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_joint c Set.univ _ _ _ _ _ _ _ _ _ (win1_0.fill (grid1.coords t) d0 (iblk1 V c 0 t)) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [show win1_0.cut (grid1.coords t) (encBlk V c t) = iblk1 V c 0 t from win1_0.cut_fill _ _ _]
    iexact H0
  isplitl [H1]; · iexact H1
  isplitl [H2]; · iexact H2
  iexists (outJ (F := Ideal) (win1_0.fill (grid1.coords t) d0 (iblk1 V c 0 t)) (iblk1 V c 1 t) (iblk1 V c 2 t))
  have hc : win1_3.cut (grid1.coords t) (outJ (F := Ideal) (encBlk V c t) (iblk1 V c 1 t) (iblk1 V c 2 t))
      = win1_3.cut (grid1.coords t) (outJ (F := Ideal) (win1_0.fill (grid1.coords t) d0 (iblk1 V c 0 t)) (iblk1 V c 1 t) (iblk1 V c 2 t)) :=
    cut_outJ_congr t _ d0 (iblk1 V c 0 t) (iblk1 V c 1 t) (iblk1 V c 2 t)
  rw [hc, win1_3.fill_cut]
  iexact H3

theorem body_obligation1x (c : Dev nD) :
    BodyObligationLoose (dat1 (F := Ideal) V c) (defs₀ (F := Ideal)) Variants.none () Set.univ := fun t => by
  rw [bigSep_W1, bigSep_W1]
  exact sound_body1x V c t

end Cert.KernelIdeal.Hand

end
-- ==== Proof.KIValue0.lean ====
/-
  The projection pipeline's output array.

  The projection pipeline has one point; each of its three windows is its whole array. So each input block is the
  array itself, what the one point writes back is the body's arithmetic of the two arrays, and its block covers the
  output array: the output array ends as the matrix product, entry by entry, over the extended reals.
-/
import proofs.«176540_j25082609008778_2_alg».proof.Proof.KIValue
import proofs.«176540_j25082609008778_2_alg».proof.Proof.PayAt
import proofs.«176540_j25082609008778_2_alg».proof.Proof.HostAt
import proofs.«176540_j25082609008778_2_alg».proof.Proof.Spec
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

section AnyF
variable {F : FTy → Type} [FloatOps F]
variable (V : (c : Dev nD) → (b : Ref sig .tc) → Buf (Elt F) ((c : Thread nD τ).loc b))

/-- Over the grid (one point): every window's block index is zero on both axes. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0)

/-- The left input block is the flattened decoder matrix itself. -/
theorem iblk0_0_eq (c : Dev nD) (t : Fin cfg0.N) : iblk0 V c 0 t = V c main_v6 := by
  obtain ⟨e0, e1, -⟩ := idx_facts0 t
  funext j
  show V c main_v6 (((cfg0.win 0).blk t).view.emb j) = V c main_v6 j
  refine congrArg _ (funext fun a => Fin.ext ?_)
  match a with
  | ⟨0, _⟩ => show win0_0.index t (0 : Fin 2) * 400 + 1 * (j 0).val = (j 0).val; rw [e0]; omega
  | ⟨1, _⟩ => show win0_0.index t (1 : Fin 2) * 512 + 1 * (j 1).val = (j 1).val; rw [e1]; omega

/-- The right input block is the weight block itself. -/
theorem iblk0_1_eq (c : Dev nD) (t : Fin cfg0.N) : iblk0 V c 1 t = V c main_v5 := by
  obtain ⟨-, -, e0, e1, -⟩ := idx_facts0 t
  funext j
  show V c main_v5 (((cfg0.win 1).blk t).view.emb j) = V c main_v5 j
  refine congrArg _ (funext fun a => Fin.ext ?_)
  match a with
  | ⟨0, _⟩ => show win0_1.index t (0 : Fin 2) * 512 + 1 * (j 0).val = (j 0).val; rw [e0]; omega
  | ⟨1, _⟩ => show win0_1.index t (1 : Fin 2) * 1024 + 1 * (j 1).val = (j 1).val; rw [e1]; omega

/-- The product of the two arrays the pipeline finds: what the output array is shown to end as. -/
abbrev G7 (c : Dev nD) : Buf (Elt F) ((cfg0.win 2).arr.view.loc (c : Thread nD τ)) :=
  k0_pay1 (V c main_v6) (V c main_v5)

/-- What the one point writes back is its block of that product. -/
theorem flushed0_2_eq (c : Dev nD) (t : Fin cfg0.N) :
    (dat0 V c).flushed 2 t = ((cfg0.win 2).blk t).view.read (Elt F) (G7 V c) := by
  show (cfg0.win 2).cut (grid0.coords t) ((dat0 V c).after 2 t) = _
  rw [after0_2, outP_eq, iblk0_0_eq, iblk0_1_eq]
  obtain ⟨-, -, -, -, e0, e1⟩ := idx_facts0 t
  funext j
  show k0_pay1 (V c main_v6) (V c main_v5) (win0_2.xinj (grid0.coords t) j)
    = k0_pay1 (V c main_v6) (V c main_v5) (((cfg0.win 2).blk t).view.emb j)
  refine congrArg _ (funext fun a => Fin.ext ?_)
  match a with
  | ⟨0, _⟩ => show (j 0).val = win0_2.index t (0 : Fin 2) * 400 + 1 * (j 0).val; rw [e0]; omega
  | ⟨1, _⟩ => show (j 1).val = win0_2.index t (1 : Fin 2) * 1024 + 1 * (j 1).val; rw [e1]; omega

/-- The one block covers the output array. -/
theorem cover0_2 (i : S400x1024.Idx) :
    ∃ t : Fin cfg0.N, (cfg0.win 2).flush t = true ∧ i ∈ ((cfg0.win 2).blk t).view.set := by
  refine ⟨t0_0, flush0_2 t0_0, ?_⟩
  obtain ⟨-, -, -, -, e0, e1⟩ := idx_facts0 t0_0
  show i ∈ ((View.whole main_v7).slice (win0_2.rect t0_0)).set
  rw [View.set_slice_whole, Rect.mem_set_unit]
  intro a
  match a with
  | ⟨0, _⟩ =>
    show win0_2.index t0_0 (0 : Fin 2) * 400 ≤ (i 0).val ∧ (i 0).val < win0_2.index t0_0 (0 : Fin 2) * 400 + 400
    have h : (i 0).val < 400 := (i 0).isLt
    rw [e0]; omega
  | ⟨1, _⟩ =>
    show win0_2.index t0_0 (1 : Fin 2) * 1024 ≤ (i 1).val ∧ (i 1).val < win0_2.index t0_0 (1 : Fin 2) * 1024 + 1024
    have h : (i 1).val < 1024 := (i 1).isLt
    rw [e1]; omega

/-- THE PROJECTED ARRAY after the run: the body's arithmetic of the two arrays the pipeline finds. -/
theorem final_v7_eq (c : Dev nD) : (dat0 V c).arrAt 2 cfg0.N = G7 V c :=
  (dat0 V c).arrAt_eq_of_cover 2 (G7 V c) (fun t _ => flushed0_2_eq V c t) (cover0_2)

end AnyF

variable (V : (c : Dev nD) → (b : Ref sig .tc) → Buf (Elt Ideal) ((c : Thread nD τ).loc b))

/-- The flattened decoder matrix the projection pipeline finds, as an array of extended reals. -/
abbrev decFlatArr (c : Dev nD) : S400x512.Idx → EReal := V c main_v6
/-- The right weight block the projection pipeline finds, as an array of extended reals. -/
abbrev wRightArr (c : Dev nD) : S512x1024.Idx → EReal := V c main_v5
/-- The projected matrix after the projection pipeline's run, as an array of extended reals. -/
abbrev projArr (c : Dev nD) : S400x1024.Idx → EReal := (dat0 (F := Ideal) V c).arrAt 2 cfg0.N

/-- THE PROJECTED ARRAY, entry by entry, over the extended reals: the matrix product. -/
theorem final_v7 (c : Dev nD) (p : Fin 400) (q : Fin 1024) :
    projArr V c (ix2 p q) = ∑ k : Fin 512, decFlatArr V c (ix2 p k) * wRightArr V c (ix2 k q) := by
  show ((dat0 (F := Ideal) V c).arrAt 2 cfg0.N) (ix2 p q) = _
  rw [final_v7_eq]
  exact PayAt.k0_pay1_apply (V c main_v6) (V c main_v5) p q

end Cert.KernelIdeal.Hand

end
-- ==== Proof.JointAt.lean ====
/-
  The two kernel bodies compute the specification's two parts.

  * If the projection body's left block holds the decoder array's row `(b, u)` in its row `b · 100 + u` and its right
    block holds `W[q, 512 + k]` at `(k, q)`, its value at `(b · 100 + u, q)` is the decoder's part
    `∑ k, dec[b, u, k] · W[q, 512 + k]`.
  * If the joint body's encoder block holds the encoder array's row `(b, t)` in its row `r`, its weight block holds
    `W[q, k]` at `(k, q)`, and its third block holds the decoder's part at `(b, u, q)`, its value at `(0, r, u, q)`
    is the specification at `(b, t, u, q)`.
  Only the definitions of the sums are used: no law of the extended reals beyond congruence.
-/
import proofs.«176540_j25082609008778_2_alg».proof.Proof.PayAt
import proofs.«176540_j25082609008778_2_alg».proof.Proof.HostAt

noncomputable section

open scoped BigOperators

namespace Cert.KernelIdeal.JointAt

open Cert.KernelIdeal Idealize.ShloMosaic Idealize.ShloMosaic.ValueIdx

/-- The projection body at row `b · 100 + u`, column `q`, is the decoder's part at `(b, u, q)`. -/
theorem proj_at (dec : JointSpec.S4x100x512.Idx → EReal) (W : JointSpec.S1024x1024.Idx → EReal)
    (xf : Vec Ideal S400x512 .f32) (wr : Vec Ideal S512x1024 .bf16) (b : Fin 4) (u : Fin 100) (q : Fin 1024)
    (hx : ∀ k : Fin 512, xf (ix2 (HostAt.row b u) k) = dec (ix3 b u k))
    (hw : ∀ k : Fin 512, wr (ix2 k q) = W (ix2 q (JointSpec.hi k))) :
    Gen.k0_pay1 (F := Ideal) xf wr (ix2 (HostAt.row b u) q) = JointSpec.decPart dec W b u q := by
  rw [PayAt.k0_pay1_apply]
  exact Finset.sum_congr rfl fun k _ => by rw [hx k, hw k]

/-- The joint body at `(0, r, u, q)` is the specification at `(b, t, u, q)`. -/
theorem joint_at (enc : JointSpec.S4x512x512.Idx → EReal) (dec : JointSpec.S4x100x512.Idx → EReal)
    (W : JointSpec.S1024x1024.Idx → EReal)
    (x : Vec Ideal S1x24x512 .f32) (wl : Vec Ideal S512x1024 .bf16) (d : Vec Ideal S1x100x1024 .f32)
    (b : Fin 4) (t : Fin 512) (r : Fin 24) (u : Fin 100) (q : Fin 1024)
    (hx : ∀ k : Fin 512, x (ix3 (0 : Fin 1) r k) = enc (ix3 b t k))
    (hw : ∀ k : Fin 512, wl (ix2 k q) = W (ix2 q (JointSpec.lo k)))
    (hd : d (ix3 (0 : Fin 1) u q) = JointSpec.decPart dec W b u q) :
    Gen.k1_pay1 (F := Ideal) x wl d (ix4 (0 : Fin 1) r u q) = JointSpec.G enc dec W (ix4 b t u q) := by
  rw [PayAt.k1_pay1_apply, hd]
  exact congrArg (· + JointSpec.decPart dec W b u q) (Finset.sum_congr rfl fun k _ => by rw [hx k, hw k])

end Cert.KernelIdeal.JointAt

end
-- ==== Proof.KIValue1.lean ====
/-
  The joint pipeline's output array is the specification, over the extended reals.

  At grid point `t` (batch `t / 22`, row block `t % 22`) the joint body finds: rows `24·(t % 22) …` of batch
  `t / 22` of the encoder array (as many as lie inside the array), the whole weight block, and slab `t / 22` of the
  projected decoder array. Its arithmetic at `(0, r, u, q)` is then the specification at
  `(t / 22, 24·(t % 22) + r, u, q)`, which is the array index under `(0, r, u, q)` of the output block. So every
  point writes back its block of ONE function, the blocks cover the array (row `i` of batch `b` lies in the block
  of point `22·b + i / 24`), and the array ends as that function.
-/
import proofs.«176540_j25082609008778_2_alg».proof.Proof.KIValue
import proofs.«176540_j25082609008778_2_alg».proof.Proof.JointAt
import proofs.«176540_j25082609008778_2_alg».proof.Proof.PayAt
import proofs.«176540_j25082609008778_2_alg».proof.Proof.HostAt
import proofs.«176540_j25082609008778_2_alg».proof.Proof.Spec
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

/-- Over the grid: where each window's block sits. The encoder window and the output window move together (batch
    `t / 22`, row block `t % 22`), the decoder window follows the batch, the weight window stays; the output
    window keeps 24 rows at every row block but the last, which keeps 8. -/
theorem idx_facts1 : ∀ t : Fin cfg1.N,
    win1_3.index t (0 : Fin 4) = t.val / 22 ∧ win1_3.index t (1 : Fin 4) = t.val % 22
    ∧ win1_3.index t (2 : Fin 4) = 0 ∧ win1_3.index t (3 : Fin 4) = 0
    ∧ win1_0.index t (0 : Fin 3) = t.val / 22 ∧ win1_0.index t (1 : Fin 3) = t.val % 22 ∧ win1_0.index t (2 : Fin 3) = 0
    ∧ win1_1.index t (0 : Fin 2) = 0 ∧ win1_1.index t (1 : Fin 2) = 0
    ∧ win1_2.index t (0 : Fin 3) = t.val / 22 ∧ win1_2.index t (1 : Fin 3) = 0 ∧ win1_2.index t (2 : Fin 3) = 0
    ∧ ((t.val % 22 < 21 ∧ win1_3.xsize (grid1.coords t) (1 : Fin 4) = 24)
        ∨ (t.val % 22 = 21 ∧ win1_3.xsize (grid1.coords t) (1 : Fin 4) = 8)) :=
  (by decide +kernel : ∀ t : Fin grid1.N,
    win1_3.index t (0 : Fin 4) = t.val / 22 ∧ win1_3.index t (1 : Fin 4) = t.val % 22
    ∧ win1_3.index t (2 : Fin 4) = 0 ∧ win1_3.index t (3 : Fin 4) = 0
    ∧ win1_0.index t (0 : Fin 3) = t.val / 22 ∧ win1_0.index t (1 : Fin 3) = t.val % 22 ∧ win1_0.index t (2 : Fin 3) = 0
    ∧ win1_1.index t (0 : Fin 2) = 0 ∧ win1_1.index t (1 : Fin 2) = 0
    ∧ win1_2.index t (0 : Fin 3) = t.val / 22 ∧ win1_2.index t (1 : Fin 3) = 0 ∧ win1_2.index t (2 : Fin 3) = 0
    ∧ ((t.val % 22 < 21 ∧ win1_3.xsize (grid1.coords t) (1 : Fin 4) = 24)
        ∨ (t.val % 22 = 21 ∧ win1_3.xsize (grid1.coords t) (1 : Fin 4) = 8)))

/-- A filled block at an index the transfer moves is the moved part there. -/
theorem fill_of_moved {G : Pipeline.Grid} (w : Window sig G) {α : Type} (i : G.Coords) (d : w.block.Idx → α)
    (g : (w.xblock i).Idx → α) (j : w.block.Idx) (h : w.moved i j = true) :
    w.fill i d g j = g fun a => ⟨(j a).val, (w.moved_iff i j).mp h a⟩ := by
  unfold Window.fill; rw [dif_pos h]

/-- THE BLOCKS COVER THE ARRAY: index `(b, i, u, q)` lies in the block of point `22·b + i / 24`. -/
theorem cover1_3 (i : S4x512x100x1024.Idx) :
    ∃ t : Fin cfg1.N, (cfg1.win 3).flush t = true ∧ i ∈ ((cfg1.win 3).blk t).view.set := by
  have h0 : (i 0).val < 4 := (i 0).isLt
  have h1 : (i 1).val < 512 := (i 1).isLt
  have h2 : (i 2).val < 100 := (i 2).isLt
  have h3 : (i 3).val < 1024 := (i 3).isLt
  obtain ⟨t, ht⟩ : ∃ t : Fin cfg1.N, t.val = (i 0).val * 22 + (i 1).val / 24 :=
    ⟨⟨(i 0).val * 22 + (i 1).val / 24, by show _ < grid1.N; rw [N_1]; omega⟩, rfl⟩
  refine ⟨t, flush1_3 t, ?_⟩
  obtain ⟨e0, e1, e2, e3, -, -, -, -, -, -, -, -, ex⟩ := idx_facts1 t
  obtain ⟨-, -, -, x0, x2, x3⟩ := cut_facts t
  show i ∈ ((View.whole main_v9).slice (win1_3.rect t)).set
  rw [View.set_slice_whole, Rect.mem_set_unit]
  intro a
  match a with
  | ⟨0, _⟩ =>
    show win1_3.index t (0 : Fin 4) * 1 ≤ (i 0).val
      ∧ (i 0).val < win1_3.index t (0 : Fin 4) * 1 + win1_3.xsize (grid1.coords t) (0 : Fin 4)
    rw [e0, x0]; omega
  | ⟨1, _⟩ =>
    show win1_3.index t (1 : Fin 4) * 24 ≤ (i 1).val
      ∧ (i 1).val < win1_3.index t (1 : Fin 4) * 24 + win1_3.xsize (grid1.coords t) (1 : Fin 4)
    rw [e1]
    rcases ex with ⟨hlt, hx⟩ | ⟨heq, hx⟩ <;> rw [hx] <;> omega
  | ⟨2, _⟩ =>
    show win1_3.index t (2 : Fin 4) * 100 ≤ (i 2).val
      ∧ (i 2).val < win1_3.index t (2 : Fin 4) * 100 + win1_3.xsize (grid1.coords t) (2 : Fin 4)
    rw [e2, x2]; omega
  | ⟨3, _⟩ =>
    show win1_3.index t (3 : Fin 4) * 1024 ≤ (i 3).val
      ∧ (i 3).val < win1_3.index t (3 : Fin 4) * 1024 + win1_3.xsize (grid1.coords t) (3 : Fin 4)
    rw [e3, x3]; omega

variable (V : (c : Dev nD) → (b : Ref sig .tc) → Buf (Elt Ideal) ((c : Thread nD τ).loc b))

/-- THE ENCODER BLOCK: row `r` of the block at point `t`, when it lies inside the array, is row
    `24·(t % 22) + r` of batch `t / 22` of the encoder array. -/
theorem encBlk_row (c : Dev nD) (t : Fin cfg1.N) (r : Fin 24) (hr : r.val < win1_3.xsize (grid1.coords t) (1 : Fin 4))
    (b : Fin 4) (tt : Fin 512) (hb : b.val = t.val / 22) (htt : tt.val = t.val % 22 * 24 + r.val) (k : Fin 512) :
    encBlk V c t (ix3 (0 : Fin 1) r k) = (V c main_arg0 : S4x512x512.Idx → EReal) (ix3 b tt k) := by
  obtain ⟨-, -, -, -, e0, e1, e2, -⟩ := idx_facts1 t
  unfold encBlk
  rw [fill_of_moved win1_0 (grid1.coords t) _ _ _ (moved_row t r hr k)]
  show (V c main_arg0 : S4x512x512.Idx → EReal) (((cfg1.win 0).blk t).view.emb _) = _
  refine congrArg _ (funext fun a => Fin.ext ?_)
  match a with
  | ⟨0, _⟩ => show win1_0.index t (0 : Fin 3) * 1 + 1 * 0 = b.val; rw [e0, hb]; omega
  | ⟨1, _⟩ => show win1_0.index t (1 : Fin 3) * 24 + 1 * r.val = tt.val; rw [e1, htt]; omega
  | ⟨2, _⟩ => show win1_0.index t (2 : Fin 3) * 512 + 1 * k.val = k.val; rw [e2]; omega

/-- THE WEIGHT BLOCK at every point is the weight array the pipeline finds. -/
theorem wBlk_eq (c : Dev nD) (t : Fin cfg1.N) (k : Fin 512) (q : Fin 1024) :
    iblk1 V c 1 t (ix2 k q) = (V c main_v2 : S512x1024.Idx → EReal) (ix2 k q) := by
  obtain ⟨-, -, -, -, -, -, -, e0, e1, -⟩ := idx_facts1 t
  show (V c main_v2 : S512x1024.Idx → EReal) (((cfg1.win 1).blk t).view.emb (ix2 k q)) = _
  refine congrArg _ (funext fun a => Fin.ext ?_)
  match a with
  | ⟨0, _⟩ => show win1_1.index t (0 : Fin 2) * 512 + 1 * k.val = k.val; rw [e0]; omega
  | ⟨1, _⟩ => show win1_1.index t (1 : Fin 2) * 1024 + 1 * q.val = q.val; rw [e1]; omega

/-- THE DECODER BLOCK at point `t` is slab `t / 22` of the projected decoder array. -/
theorem dBlk_eq (c : Dev nD) (t : Fin cfg1.N) (b : Fin 4) (hb : b.val = t.val / 22) (u : Fin 100) (q : Fin 1024) :
    iblk1 V c 2 t (ix3 (0 : Fin 1) u q) = (V c main_v8 : S4x100x1024.Idx → EReal) (ix3 b u q) := by
  obtain ⟨-, -, -, -, -, -, -, -, -, e0, e1, e2, -⟩ := idx_facts1 t
  show (V c main_v8 : S4x100x1024.Idx → EReal) (((cfg1.win 2).blk t).view.emb (ix3 (0 : Fin 1) u q)) = _
  refine congrArg _ (funext fun a => Fin.ext ?_)
  match a with
  | ⟨0, _⟩ => show win1_2.index t (0 : Fin 3) * 1 + 1 * 0 = b.val; rw [e0, hb]; omega
  | ⟨1, _⟩ => show win1_2.index t (1 : Fin 3) * 100 + 1 * u.val = u.val; rw [e1]; omega
  | ⟨2, _⟩ => show win1_2.index t (2 : Fin 3) * 1024 + 1 * q.val = q.val; rw [e2]; omega

section Final
variable (c : Dev nD) (dec : JointSpec.S4x100x512.Idx → EReal) (Wm : JointSpec.S1024x1024.Idx → EReal)
  (hW : ∀ (k : Fin 512) (q : Fin 1024), (V c main_v2 : S512x1024.Idx → EReal) (ix2 k q) = Wm (ix2 q (JointSpec.lo k)))
  (hD : ∀ (b : Fin 4) (u : Fin 100) (q : Fin 1024),
    (V c main_v8 : S4x100x1024.Idx → EReal) (ix3 b u q) = ∑ k : Fin 512, dec (ix3 b u k) * Wm (ix2 q (JointSpec.hi k)))
include hW hD

/-- AT ONE POINT: the body's arithmetic at an index `X` of the output block's part inside the array is the
    specification at the array index `Y` under it. -/
theorem joint_point (t : Fin cfg1.N) (X : S1x24x100x1024.Idx)
    (hX : ∀ a : Fin 4, (X a).val < win1_3.xsize (grid1.coords t) a) (Y : S4x512x100x1024.Idx)
    (hY : ∀ a : Fin 4, (Y a).val = win1_3.index t a * S1x24x100x1024.size a + (X a).val) :
    k1_pay1 (F := Ideal) (encBlk V c t) (iblk1 V c 1 t) (iblk1 V c 2 t) X
      = JointSpec.G (V c main_arg0) dec Wm Y := by
  obtain ⟨z, r, u, q, rfl⟩ : ∃ (z : Fin 1) (r : Fin 24) (u : Fin 100) (q : Fin 1024), X = ix4 z r u q :=
    ⟨X 0, X 1, X 2, X 3, eq_ix4 X⟩
  obtain rfl : z = 0 := Subsingleton.elim _ _
  obtain ⟨b, tt, u', q', rfl⟩ : ∃ (b : Fin 4) (tt : Fin 512) (u' : Fin 100) (q' : Fin 1024), Y = ix4 b tt u' q' :=
    ⟨Y 0, Y 1, Y 2, Y 3, eq_ix4 Y⟩
  obtain ⟨e0, e1, e2, e3, -⟩ := idx_facts1 t
  have hb : b.val = t.val / 22 := by
    have h := hY 0
    change b.val = win1_3.index t (0 : Fin 4) * 1 + 0 at h
    rw [e0] at h; omega
  have htt : tt.val = t.val % 22 * 24 + r.val := by
    have h := hY 1
    change tt.val = win1_3.index t (1 : Fin 4) * 24 + r.val at h
    rw [e1] at h; exact h
  obtain rfl : u' = u := Fin.ext (by
    have h := hY 2
    change u'.val = win1_3.index t (2 : Fin 4) * 100 + u.val at h
    rw [e2] at h; omega)
  obtain rfl : q' = q := Fin.ext (by
    have h := hY 3
    change q'.val = win1_3.index t (3 : Fin 4) * 1024 + q.val at h
    rw [e3] at h; omega)
  exact JointAt.joint_at (V c main_arg0) dec Wm _ _ _ b tt r u' q'
    (fun k => encBlk_row V c t r (hX 1) b tt hb htt k)
    (fun k => (wBlk_eq V c t k q').trans (hW k q'))
    ((dBlk_eq V c t b hb u' q').trans (hD b u' q'))

/-- WHAT POINT `t` WRITES BACK is its block of the specification. -/
theorem flushed1_3_eq (t : Fin cfg1.N) :
    (dat1 V c).flushed 3 t
      = ((cfg1.win 3).blk t).view.read (Elt Ideal)
          (JointSpec.G (V c main_arg0) dec Wm : Buf (Elt Ideal) ((cfg1.win 3).arr.view.loc (c : Thread nD τ))) := by
  show (cfg1.win 3).cut (grid1.coords t) ((dat1 V c).after 3 t) = _
  rw [after1_3, outJ_eq]
  funext j
  exact joint_point V c dec Wm hW hD t (win1_3.xinj (grid1.coords t) j) (fun a => (j a).isLt)
    (((cfg1.win 3).blk t).view.emb j) (fun a => win1_3.rect_emb_val t j a)

/-- THE OUTPUT ARRAY after the run is the specification of the encoder array the pipeline finds, the decoder
    array and the weight matrix. -/
theorem final_v9 :
    (dat1 (F := Ideal) V c).arrAt 3 cfg1.N
      = (JointSpec.G (V c main_arg0) dec Wm : Buf (Elt Ideal) ((cfg1.win 3).arr.view.loc (c : Thread nD τ))) :=
  (dat1 V c).arrAt_eq_of_cover 3 _ (fun t _ => flushed1_3_eq V c dec Wm hW hD t) cover1_3

end Final

end Cert.KernelIdeal.Hand

end
-- ==== Proof.KIFinal.lean ====
/-
  The idealized program's run with its result named: at the exact instance every weakly fair execution
  terminates, the three arguments end as launched, and the result array holds, at (b, t, u, c),
  (∑ₖ enc[b,t,k]·W[c,k]) + (∑ₖ dec[b,u,k]·W[c,512+k]).

  The result is what the joint pipeline's 88 write-backs leave (the output window NOT forgotten here); its
  decoder operand is the projection pipeline's one write-back read through the row split; the weight operands are
  the transposed halves of W.
-/
import proofs.«176540_j25082609008778_2_alg».proof.Proof.KIHost
import proofs.«176540_j25082609008778_2_alg».proof.Proof.KIExact
import proofs.«176540_j25082609008778_2_alg».proof.Proof.KIValue0
import proofs.«176540_j25082609008778_2_alg».proof.Proof.KIValue1

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat RDat)

variable (m : (ℓ : Loc nD τ sig) → Buf (Elt Ideal) ℓ) (ρ : Dev nD → PrngReg)

/-- The joint pipeline's decoder operand is the projected decoder: Σₖ dec[b,u,k]·W[q,512+k]. -/
theorem Y3_v8_sum (c : Dev nD) (b : Fin 4) (u : Fin 100) (q : Fin 1024) :
    (Y3 m c main_v8 : S4x100x1024.Idx → Elt Ideal .f32) (ix3 b u q)
      = ∑ k : Fin 512, decA m c (ix3 b u k) * wA m c (ix2 q (JointSpec.hi k)) := by
  rw [Y3_v8_apply]
  refine (final_v7 (Y1 m) c (HostAt.row b u) q).trans (Finset.sum_congr rfl fun k _ => ?_)
  exact congrArg₂ (· * ·) (Y1_v6_apply m c b u k) (Y1_v5_apply m c k q)

/-- What the joint pipeline's write-backs leave in the result array. -/
theorem v9_value (c : Dev nD) :
    ((dat1 (F := Ideal) (Y3 m) c).arrAt 3 cfg1.N : S4x512x100x1024.Idx → EReal) = JointSpec.G (encA m c) (decA m c) (wA m c) := by
  have h := final_v9 (Y3 m) c (decA m c) (wA m c) (fun k q => Y3_v2_apply m c k q) (fun b u q => Y3_v8_sum m c b u q)
  rw [h, Y3_arg0]

theorem run_ideal : θ_run defs (onTc (τ := τ) (main (F := Ideal))) ⟨m, fun _ => 0, ρ⟩ (fun r => ∀ c : Dev nD,
      r.2.mem ((c.tc : Thread nD τ).loc main_v9) = JointSpec.G (encA m c) (decA m c) (wA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
      obtain ⟨A, hA, hs⟩ := h c
      refine ⟨?_, args_of_QY m _ c r.2 (h c)⟩
      refine (hs (Proc.devRef .tc main_v9) (mem_uc main_v9 (by decide))).trans ?_
      refine (X4_arr m c A 3).trans ?_
      have h3 : A 3 = (dat1 (F := Ideal) (Y3 m) c).arrAt 3 cfg1.N :=
        (Dat.toRForget_arrAt_iff (dat1 (F := Ideal) (Y3 m) c) (fgt := fun _ => false) (w := 3) rfl cfg1.N (A 3)).mp (hA 3)
      rw [h3]
      exact v9_value m c)
    (run_all (F := Ideal) m ρ (fun _ => false) (fun c => body_obligation1x (Y3 m) c))

end Cert.KernelIdeal.Hand

end
-- ==== Proof.RefValue.lean ====
/-
  The reference computes the joint network's output.

  The reference slices the weight matrix into its left and right halves, contracts the encoder array with the left
  half and the decoder array with the right half over the feature axis, repeats the first product along the
  decoder-time axis and the second along the encoder-time axis, and adds. Read at an index `(b, t, u, c)` in the
  extended reals this is  (∑ k, enc[b, t, k] · W[c, k]) + (∑ k, dec[b, u, k] · W[c, 512 + k]),  the specification.
-/
import proofs.«176540_j25082609008778_2_alg».proof.Proof.Gen.ReferenceIdeal.Read
import proofs.«176540_j25082609008778_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- Through the two repeats, the first product's left operand is read at `(b, t, k)`. -/
theorem enc_idx (i : S4x512x100x1024.Idx) (k : Fin 512) :
    lidx_main_v2 (idx_main_v4 (idx_main_v6 i)) k = @ix3 4 512 512 (i 0) (i 1) k :=
  funext fun a => by
    match a with
    | ⟨0, _⟩ => rfl
    | ⟨1, _⟩ => rfl
    | ⟨2, _⟩ => rfl

/-- … and the weight matrix, through its left slice, at `(c, k)`. -/
theorem encW_idx (i : S4x512x100x1024.Idx) (k : Fin 512) :
    idx_main_v0 (ridx_main_v2 (idx_main_v4 (idx_main_v6 i)) k) = @ix2 1024 1024 (i 3) (JointSpec.lo k) :=
  funext fun a => by
    match a with
    | ⟨0, _⟩ => rfl
    | ⟨1, _⟩ => rfl

/-- Through the two repeats, the second product's left operand is read at `(b, u, k)`. -/
theorem dec_idx (i : S4x512x100x1024.Idx) (k : Fin 512) :
    lidx_main_v3 (idx_main_v5 (idx_main_v7 i)) k = @ix3 4 100 512 (i 0) (i 2) k :=
  funext fun a => by
    match a with
    | ⟨0, _⟩ => rfl
    | ⟨1, _⟩ => rfl
    | ⟨2, _⟩ => rfl

/-- … and the weight matrix, through its right slice, at `(c, 512 + k)`. -/
theorem decW_idx (i : S4x512x100x1024.Idx) (k : Fin 512) :
    idx_main_v1 (ridx_main_v3 (idx_main_v5 (idx_main_v7 i)) k) = @ix2 1024 1024 (i 3) (JointSpec.hi k) :=
  funext fun a => by
    match a with
    | ⟨0, _⟩ => rfl
    | ⟨1, _⟩ => rfl

/-- The reference's last stage is the specification, index by index. -/
theorem val_main_v8_eq_G (x0 : (⟨S4x512x512, .f32⟩ : BufTy).Contents (Elt Ideal))
    (x1 : (⟨S4x100x512, .f32⟩ : BufTy).Contents (Elt Ideal)) (x2 : (⟨S1024x1024, .f32⟩ : BufTy).Contents (Elt Ideal)) :
    val_main_v8 (F := Ideal) x0 x1 x2 = JointSpec.G x0 x1 x2 := by
  funext i
  rw [val_main_v8_apply, val_main_v6_apply, val_main_v4_apply, val_main_v2_apply, val_main_v7_apply,
    val_main_v5_apply, val_main_v3_apply]
  simp only [val_main_v0_apply, val_main_v1_apply, enc_idx, encW_idx, dec_idx, decW_idx]
  rfl

/-- THE REFERENCE IS THE SPECIFICATION: the term the reference's run leaves in its result buffer, as a function of the
    three argument arrays, is `JointSpec.G` of them. -/
theorem run_term_eq_G (x0 : (⟨S4x512x512, .f32⟩ : BufTy).Contents (Elt Ideal))
    (x1 : (⟨S4x100x512, .f32⟩ : BufTy).Contents (Elt Ideal)) (x2 : (⟨S1024x1024, .f32⟩ : BufTy).Contents (Elt Ideal)) :
    addf (F := Ideal) (broadcastInDim S4x512x100x1024 ![0, 1, 2, 3] bcast_S4x512x1x1024_S4x512x100x1024_0_1_2_3 (broadcastInDim S4x512x1x1024 ![0, 1, 3] bcast_S4x512x1024_S4x512x1x1024_0_1_3 (Host.dotGeneral (F := Ideal) (φ₁ := .f32) (φ₂ := .f32) dot_S4x512x512_S1024x512_S4x512x1024_2_1_01_0_n_n none (x0) (extractStridedSlice S1024x512 ![0, 0] (x2) slices_S1024x1024_S1024x512_0_0)))) (broadcastInDim S4x512x100x1024 ![0, 1, 2, 3] bcast_S4x1x100x1024_S4x512x100x1024_0_1_2_3 (broadcastInDim S4x1x100x1024 ![0, 2, 3] bcast_S4x100x1024_S4x1x100x1024_0_2_3 (Host.dotGeneral (F := Ideal) (φ₁ := .f32) (φ₂ := .f32) dot_S4x100x512_S1024x512_S4x100x1024_2_1_01_0_n_n none (x1) (extractStridedSlice S1024x512 ![0, 512] (x2) slices_S1024x1024_S1024x512_0_512))))
      = JointSpec.G x0 x1 x2 :=
  (val_main_v8_eq (F := Ideal) x0 x1 x2).trans (val_main_v8_eq_G x0 x1 x2)

end Cert.ReferenceIdeal.RefValue

end
-- ==== Proof.lean ====
/-
  The certificate: a joint-network forward pass — the encoder and decoder arrays each multiplied by its half of
  one weight matrix and the two products added with broadcasting, out[b,t,u,c] = (enc·W₁ᵀ)[b,t,c] + (dec·W₂ᵀ)[b,u,c]
  — computed by two pipelined kernels (a one-step projection of the decoder; then, per batch and per 24-row
  block of the encoder, the encoder block's product added to the projected decoder and written out), against
  the plain two-contraction reference.

  At the exact instance both programs end with the same array: a matrix product into a zero accumulator and the
  host's contraction are the same finite sum, a change of float format is the identity, and the kernel's tiling —
  including the last encoder block, which has only 8 of its 24 rows inside the array — does not change which
  sum lands at which index. No law beyond reordering is needed, so finiteness of the inputs is never used.
  The frames: each program runs to the end, faults nowhere and leaves its three arguments unchanged; for the
  word-level kernel the output window's staging contents are left unnamed, since past the array's end they are
  computed from words nothing names.
-/
import proofs.«176540_j25082609008778_2_alg».proof.Defs
import proofs.«176540_j25082609008778_2_alg».proof.Proof.Gen.Kernel
import proofs.«176540_j25082609008778_2_alg».proof.Proof.Gen.KernelIdeal
import proofs.«176540_j25082609008778_2_alg».proof.Proof.Gen.ReferenceIdeal
import proofs.«176540_j25082609008778_2_alg».proof.Proof.Gen.Pre_finite_inputs
import proofs.«176540_j25082609008778_2_alg».proof.Proof.Gen.ReferenceIdeal.Run
import proofs.«176540_j25082609008778_2_alg».proof.Proof.Gen.ReferenceIdeal.Read
import proofs.«176540_j25082609008778_2_alg».proof.Proof.KFrame
import proofs.«176540_j25082609008778_2_alg».proof.Proof.KIFinal
import proofs.«176540_j25082609008778_2_alg».proof.Proof.RefValue
import Idealize.ShloMosaic.Adequacy
import Idealize.ShloMosaic.Init

noncomputable section

namespace Cert.Proof

open Idealize.ShloMosaic Idealize.SL.Sem

/-- The word-level kernel's frame. -/
theorem frame_k : Cert.frame_Kernel := Cert.Kernel.Hand.frame

/-- The idealized kernel's frame: its run with the result dropped. -/
theorem frame_ki : Cert.frame_KernelIdeal := fun m ρ _ =>
  (θ_run Cert.KernelIdeal.defs _ _).mono (fun _ h c => (h c).2) (Cert.KernelIdeal.Hand.run_ideal m ρ)

/-- The idealized reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs, from memories agreeing on the arguments, end with the result array at the same
    function of the arguments: the sum of the two contractions, index by index. -/
theorem algebraic : Cert.algebraic_KernelIdeal_ReferenceIdeal := by
  intro m ρ m' ρ' _ hagree
  refine ⟨fun c => JointSpec.G (Cert.KernelIdeal.Hand.encA m c) (Cert.KernelIdeal.Hand.decA m c) (Cert.KernelIdeal.Hand.wA m c),
    Cert.KernelIdeal.Hand.run_ideal m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.run_term_eq_G _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
